-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x256 : Shape := ⟨2, ![1024, 256]⟩
abbrev S256x256x19x4 : Shape := ⟨4, ![256, 256, 19, 4]⟩
abbrev S256 : Shape := ⟨1, ![256]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel
  bcast_S_S256x256x19x4 : S_.BroadcastsInDim S256x256x19x4 (![] : Fin 0 → Fin S256x256x19x4.rank)
  reducesTo_S256x256x19x4_S_d0_1_2_3 : S256x256x19x4.ReducesTo [0, 1, 2, 3] S_
  bcast_S_S256 : S_.BroadcastsInDim S256 (![] : Fin 0 → Fin S256.rank)
  reducesTo_S256_S_d0 : S256.ReducesTo [0] S_

variable [Facts]

def fn {F : FTy → Type} [FloatOps F] (main_arg0 : FVec F S1024x256 .f32) (main_arg1 : FVec F S256x256x19x4 .f32) (main_arg2 : FVec F S256 .f32) : IVec S_ 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  let main_v4 : FVec F S256x256x19x4 .f32 := Host.absf main_arg1
  let main_cst_0 : FVec F S_ .f32 := constant S_ .f32 0x7F800000#32
  let main_v5 : FVec F S256x256x19x4 .f32 := broadcastInDim S256x256x19x4 ![] bcast_S_S256x256x19x4 main_cst_0
  let main_v6 : IVec S256x256x19x4 1 := cmpf .olt main_v4 main_v5
  let main_c_1 : IVec S_ 1 := constantI S_ 1 1#1
  let main_v7 : IVec S_ 1 := (fun x v => Host.reduce IntOp.andi x v reducesTo_S256x256x19x4_S_d0_1_2_3 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S1024x256 : Shape := ⟨2, ![1024, 256]⟩
abbrev S256x256x19x4 : Shape := ⟨4, ![256, 256, 19, 4]⟩
abbrev S256 : Shape := ⟨1, ![256]⟩
abbrev S19x4x256x256 : Shape := ⟨4, ![19, 4, 256, 256]⟩
abbrev S1x256 : Shape := ⟨2, ![1, 256]⟩
abbrev S512x256 : Shape := ⟨2, ![512, 256]⟩
abbrev S1x4x256x256 : Shape := ⟨4, ![1, 4, 256, 256]⟩
abbrev S1x1x256x256 : Shape := ⟨4, ![1, 1, 256, 256]⟩
abbrev S256x256 : Shape := ⟨2, ![256, 256]⟩

abbrev nBuf : Space → Nat
  | .hbm => 7
  | .vmem => 11
  | .smem => 0
  | _ => 0

abbrev bufTy : (tb : Table) → Fin (tcTables nBuf tb) → BufTy
  | .hbm, ⟨0, _⟩ => ⟨S1024x256, .f32⟩
  | .hbm, ⟨1, _⟩ => ⟨S256x256x19x4, .f32⟩
  | .hbm, ⟨2, _⟩ => ⟨S256, .f32⟩
  | .hbm, ⟨3, _⟩ => ⟨S19x4x256x256, .f32⟩
  | .hbm, ⟨4, _⟩ => ⟨S19x4x256x256, .bf16⟩
  | .hbm, ⟨5, _⟩ => ⟨S1x256, .f32⟩
  | .hbm, ⟨6, _⟩ => ⟨S1024x256, .f32⟩
  | .local _ .vmem, ⟨0, _⟩ => ⟨S512x256, .f32⟩
  | .local _ .vmem, ⟨1, _⟩ => ⟨S1x4x256x256, .bf16⟩
  | .local _ .vmem, ⟨2, _⟩ => ⟨S1x4x256x256, .bf16⟩
  | .local _ .vmem, ⟨3, _⟩ => ⟨S1x256, .f32⟩
  | .local _ .vmem, ⟨4, _⟩ => ⟨S512x256, .f32⟩
  | .local _ .vmem, ⟨5, _⟩ => ⟨S512x256, .f32⟩
  | .local _ .vmem, ⟨6, _⟩ => ⟨S512x256, .i32⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S512x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 19], ![false, false]⟩

def k0_cond2 (i : grid0.Coords) : BitVec 1 :=
  let arg1 : BitVec 32 := BitVec.ofNat 32 (i 1).val
  let c18_i32 : BitVec 32 := 18#32
  let v35 : BitVec 1 := Scalar.cmpi .eq arg1 c18_i32
  let v36 : BitVec 32 := Scalar.extui v35
  let c0_i32_28 : BitVec 32 := 0#32
  let v37 : BitVec 1 := Scalar.cmpi .ne v36 c0_i32_28
  v37

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S256x256x19x4_S19x4x256x256_2_3_1_0 : S256x256x19x4.Transposes [2, 3, 1, 0] S19x4x256x256
  bitsLt_bf16_f32 : FTy.bits .bf16 < FTy.bits .f32
  shapeCasts_S256_S1x256 : S256.ShapeCasts S1x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  packedbf16_S512x256_S512x256_0_0 : (Rect.unit (s := S512x256) ![0, 0] S512x256.size inb_S512x256_S512x256_0_0).PackedRows (EltTy.packing .bf16)
  natLt_1_32 : 1 < 32
  inb_S1x4x256x256_S1x1x256x256_0_0_0_0 : ∀ a, (![0, 0, 0, 0] : Fin 4 → Nat) a + S1x1x256x256.size a ≤ S1x4x256x256.size a
  h_S1x1x256x256 : 0 < S1x1x256x256.numel
  shapeCasts_S1x1x256x256_S256x256 : S1x1x256x256.ShapeCasts S256x256
  inb_S1x4x256x256_S1x1x256x256_0_1_0_0 : ∀ a, (![0, 1, 0, 0] : Fin 4 → Nat) a + S1x1x256x256.size a ≤ S1x4x256x256.size a
  inb_S1x4x256x256_S1x1x256x256_0_2_0_0 : ∀ a, (![0, 2, 0, 0] : Fin 4 → Nat) a + S1x1x256x256.size a ≤ S1x4x256x256.size a
  inb_S1x4x256x256_S1x1x256x256_0_3_0_0 : ∀ a, (![0, 3, 0, 0] : Fin 4 → Nat) a + S1x1x256x256.size a ≤ S1x4x256x256.size a
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  dot_S512x256_S256x256_S512x256_1_0_0_1_n_n_wf : DotDims.WF S512x256 S256x256 S512x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S1024x256.size a
  hwx0_0 : ∀ i : grid0.Coords, EltTy.bits .f32 = 32 ∨ (Rect.block (s := S1024x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4x256x256.size a ≤ S19x4x256x256.size a
  hwx0_1 : ∀ i : grid0.Coords, EltTy.bits .bf16 = 32 ∨ (Rect.block (s := S19x4x256x256) S1x4x256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S1024x256.size a
  hwx0_3 : ∀ i : grid0.Coords, EltTy.bits .f32 = 32 ∨ (Rect.block (s := S1024x256) S512x256.size (cc0_transform_3 i) (hinb0_3 i)).WholeWords (EltTy.packing .f32)

variable [Facts₀]

def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf

abbrev win0_0 : Pipeline.Window sig grid0 :=
  Pipeline.Window.ofSpec (Memref.whole main_arg0) S512x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x4x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S1024x256 : Shape := ⟨2, ![1024, 256]⟩
abbrev S256x256x19x4 : Shape := ⟨4, ![256, 256, 19, 4]⟩
abbrev S256 : Shape := ⟨1, ![256]⟩
abbrev S_ : Shape := ⟨0, ![]⟩
abbrev S1x256 : Shape := ⟨2, ![1, 256]⟩
abbrev S1024x256x1 : Shape := ⟨3, ![1024, 256, 1]⟩
abbrev S1024x256x2 : Shape := ⟨3, ![1024, 256, 2]⟩
abbrev S256x1024x256x4 : Shape := ⟨4, ![256, 1024, 256, 4]⟩
abbrev S256x1024x256x1 : Shape := ⟨4, ![256, 1024, 256, 1]⟩
abbrev S256x1024x256 : Shape := ⟨3, ![256, 1024, 256]⟩
abbrev S1x1024x256 : Shape := ⟨3, ![1, 1024, 256]⟩
abbrev S256x1024 : Shape := ⟨2, ![256, 1024]⟩

abbrev nBuf : Space → Nat
  | .hbm => 74
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S256x256x19x4, .f32⟩
  | .hbm, ⟨2, _⟩ => ⟨S256, .f32⟩
  | .hbm, ⟨3, _⟩ => ⟨S_, .f32⟩
  | .hbm, ⟨4, _⟩ => ⟨S1024x256, .f32⟩
  | .hbm, ⟨5, _⟩ => ⟨S1024x256, .f32⟩
  | .hbm, ⟨6, _⟩ => ⟨S_, .f32⟩
  | .hbm, ⟨7, _⟩ => ⟨S1024x256, .f32⟩
  | .hbm, ⟨8, _⟩ => ⟨S1024x256, .f32⟩
  | .hbm, ⟨9, _⟩ => ⟨S1024x256, .f32⟩
  | .hbm, ⟨10, _⟩ => ⟨S1024x256, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S1024x256, .i32⟩
  | .hbm, ⟨15, _⟩ => ⟨S1024x256, .i32⟩
  | .hbm, ⟨16, _⟩ => ⟨S_, .i32⟩
  | .hbm, ⟨17, _⟩ => ⟨S1024x256, .i32⟩
  | .hbm, ⟨18, _⟩ => ⟨S1024x256, .i32⟩
  | .hbm, ⟨19, _⟩ => ⟨S1024x256, .f32⟩
  | .hbm, ⟨20, _⟩ => ⟨S_, .f32⟩
  | .hbm, ⟨21, _⟩ => ⟨S1024x256, .f32⟩
  | .hbm, ⟨22, _⟩ => ⟨S1024x256, .f32⟩
  | .hbm, ⟨23, _⟩ => ⟨S_, .f32⟩
  | .hbm, ⟨24, _⟩ => ⟨S1024x256, .f32⟩
  | .hbm, ⟨25, _⟩ => ⟨S1024x256, .f32⟩
  | .hbm, ⟨26, _⟩ => ⟨S1024x256, .f32⟩
  | .hbm, ⟨27, _⟩ => ⟨S256, .i32⟩
  | .hbm, ⟨28, _⟩ => ⟨S1x256, .i32⟩
  | .hbm, ⟨29, _⟩ => ⟨S1024x256, .i32⟩
  | .hbm, ⟨30, _⟩ => ⟨S_, .i32⟩
  | .hbm, ⟨31, _⟩ => ⟨S1024x256, .i32⟩
  | .hbm, ⟨32, _⟩ => ⟨S1024x256, .i1⟩
  | .hbm, ⟨33, _⟩ => ⟨S_, .i32⟩
  | .hbm, ⟨34, _⟩ => ⟨S1024x256, .i32⟩
  | .hbm, ⟨35, _⟩ => ⟨S1024x256, .i32⟩
  | .hbm, ⟨36, _⟩ => ⟨S1024x256, .i32⟩
  | .hbm, ⟨37, _⟩ => ⟨S_, .i32⟩
  | .hbm, ⟨38, _⟩ => ⟨S1024x256, .i32⟩
  | .hbm, ⟨39, _⟩ => ⟨S1024x256, .i1⟩
  | .hbm, ⟨40, _⟩ => ⟨S_, .i32⟩
  | .hbm, ⟨41, _⟩ => ⟨S1024x256, .i32⟩
  | .hbm, ⟨42, _⟩ => ⟨S1024x256, .i32⟩
  | .hbm, ⟨43, _⟩ => ⟨S1024x256, .i32⟩
  | .hbm, ⟨44, _⟩ => ⟨S1024x256x1, .i32⟩
  | .hbm, ⟨45, _⟩ => ⟨S1024x256x1, .i32⟩
  | .hbm, ⟨46, _⟩ => ⟨S1024x256x2, .i32⟩
  | .hbm, ⟨47, _⟩ => ⟨S256x1024x256x4, .f32⟩
  | .hbm, ⟨48, _⟩ => ⟨S256x1024x256x1, .f32⟩
  | .hbm, ⟨49, _⟩ => ⟨S256x1024x256, .f32⟩
  | .hbm, ⟨50, _⟩ => ⟨S256x1024x256x1, .f32⟩
  | .hbm, ⟨51, _⟩ => ⟨S256x1024x256, .f32⟩
  | .hbm, ⟨52, _⟩ => ⟨S256x1024x256x1, .f32⟩
  | .hbm, ⟨53, _⟩ => ⟨S256x1024x256, .f32⟩
  | .hbm, ⟨54, _⟩ => ⟨S256x1024x256x1, .f32⟩
  | .hbm, ⟨55, _⟩ => ⟨S256x1024x256, .f32⟩
  | .hbm, ⟨56, _⟩ => ⟨S1x1024x256, .f32⟩
  | .hbm, ⟨57, _⟩ => ⟨S256x1024x256, .f32⟩
  | .hbm, ⟨58, _⟩ => ⟨S256x1024x256, .f32⟩
  | .hbm, ⟨59, _⟩ => ⟨S256x1024x256, .f32⟩
  | .hbm, ⟨60, _⟩ => ⟨S1x1024x256, .f32⟩
  | .hbm, ⟨61, _⟩ => ⟨S256x1024x256, .f32⟩
  | .hbm, ⟨62, _⟩ => ⟨S256x1024x256, .f32⟩
  | .hbm, ⟨63, _⟩ => ⟨S256x1024x256, .f32⟩
  | .hbm, ⟨64, _⟩ => ⟨S1x1024x256, .f32⟩
  | .hbm, ⟨65, _⟩ => ⟨S256x1024x256, .f32⟩
  | .hbm, ⟨66, _⟩ => ⟨S256x1024x256, .f32⟩
  | .hbm, ⟨67, _⟩ => ⟨S256x1024x256, .f32⟩
  | .hbm, ⟨68, _⟩ => ⟨S_, .f32⟩
  | .hbm, ⟨69, _⟩ => ⟨S256x1024, .f32⟩
  | .hbm, ⟨70, _⟩ => ⟨S1024x256, .f32⟩
  | .hbm, ⟨71, _⟩ => ⟨S1x256, .f32⟩
  | .hbm, ⟨72, _⟩ => ⟨S1024x256, .f32⟩
  | .hbm, ⟨73, _⟩ => ⟨S1024x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v6 : Ref sig .tc := ⟨.hbm, 18, rfl⟩
abbrev main_v7 : Ref sig .tc := ⟨.hbm, 19, rfl⟩
abbrev main_cst_2 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_c_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_6 : Ref sig .tc := ⟨.hbm, 37, rfl⟩
abbrev main_v21 : Ref sig .tc := ⟨.hbm, 38, rfl⟩
abbrev main_v22 : Ref sig .tc := ⟨.hbm, 39, rfl⟩
abbrev main_c_7 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩

abbrev nD : Nat := 1
abbrev τ : Topo := Topo.v7x

variable {F : FTy → Type} [FloatOps F]

class Facts₀ : Prop where
  bcast_S_S1024x256 : S_.BroadcastsInDim S1024x256 (![] : Fin 0 → Fin S1024x256.rank)
  bcast_S256_S1x256_1 : S256.BroadcastsInDim S1x256 (![1] : Fin 1 → Fin S1x256.rank)
  bcast_S1x256_S1024x256_0_1 : S1x256.BroadcastsInDim S1024x256 (![0, 1] : Fin 2 → Fin S1024x256.rank)
  bcast_S1024x256_S1024x256x1_0_1 : S1024x256.BroadcastsInDim S1024x256x1 (![0, 1] : Fin 2 → Fin S1024x256x1.rank)
  concatenates_S1024x256x1_S1024x256x1_S1024x256x2_d2 : Shape.Concatenates [S1024x256x1, S1024x256x1] S1024x256x2 2
  slices_S256x1024x256x4_S256x1024x256x1_0_0_0_0 : S256x1024x256x4.Slices ![0, 0, 0, 0] S256x1024x256x1
  shapeCasts_S256x1024x256x1_S256x1024x256 : S256x1024x256x1.ShapeCasts S256x1024x256
  slices_S256x1024x256x4_S256x1024x256x1_0_0_0_1 : S256x1024x256x4.Slices ![0, 0, 0, 1] S256x1024x256x1
  slices_S256x1024x256x4_S256x1024x256x1_0_0_0_2 : S256x1024x256x4.Slices ![0, 0, 0, 2] S256x1024x256x1
  slices_S256x1024x256x4_S256x1024x256x1_0_0_0_3 : S256x1024x256x4.Slices ![0, 0, 0, 3] S256x1024x256x1
  bcast_S1024x256_S1x1024x256_1_2 : S1024x256.BroadcastsInDim S1x1024x256 (![1, 2] : Fin 2 → Fin S1x1024x256.rank)
  bcast_S1x1024x256_S256x1024x256_0_1_2 : S1x1024x256.BroadcastsInDim S256x1024x256 (![0, 1, 2] : Fin 3 → Fin S256x1024x256.rank)
  reducesTo_S256x1024x256_S256x1024_d2 : S256x1024x256.ReducesTo [2] S256x1024
  h_S_ : 0 < S_.numel
  transposes_S256x1024_S1024x256_1_0 : S256x1024.Transposes [1, 0] S1024x256
  gather_S256x256x19x4_S1024x256x2_S256x1024x256x4_03_12_n_n_12_2_256114_wf : GatherDims.WF S256x256x19x4 S1024x256x2 S256x1024x256x4 [0, 3] [1, 2] [] [1, 2] [] 2 ![256, 1, 1, 4]

variable [Facts₀]

def gather_S256x256x19x4_S1024x256x2_S256x1024x256x4_03_12_n_n_12_2_256114 : GatherDims S256x256x19x4 S1024x256x2 S256x1024x256x4 where
  offsetDims := [0, 3]
  collapsedSliceDims := [1, 2]
  operandBatchingDims := []
  startIndicesBatchingDims := []
  startIndexMap := [1, 2]
  indexVectorDim := 2
  sliceSizes := ![256, 1, 1, 4]
  wf := gather_S256x256x19x4_S1024x256x2_S256x1024x256x4_03_12_n_n_12_2_256114_wf

class Facts : Prop extends Facts₀ where

variable [Facts]
-- ==== Proof.KanPieces.lean ====
/-
  What one grid point of the blocked layer leaves behind, as values.

  At the first point of a batch tile the body stores, from the tile's samples, the interval words, the offsets and their
  square and cube, and a zero accumulator; at every point it adds to the accumulator the four masked products of that
  point's interval (`stepV`); at the last point of a tile it writes the accumulator plus the bias row to the output block.
  Each lemma below reads one stored piece back as the payload of the values loaded before it.
-/
import proofs.«166700_j30588757082465_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KanVal

open Cert.KernelIdeal Cert.KernelIdeal.Gen

variable {F : FTy → Type} [FloatOps F]

theorem hz : (![0, 0] : Fin 2 → Nat) = fun _ => 0 := funext fun a => by fin_cases a <;> rfl

variable (c : Dev nD) (i : grid0.Coords) (arg2 : Memref sig .tc .vmem S512x256 .f32) (harg2 : arg2.IsWhole) (arg3 : Memref sig .tc .vmem S1x4x256x256 .bf16) (harg3 : arg3.IsWhole) (arg4 : Memref sig .tc .vmem S1x256 .f32) (harg4 : arg4.IsWhole) (arg5 : Memref sig .tc .vmem S512x256 .f32) (harg5 : arg5.IsWhole) (arg6 : Memref sig .tc .vmem S512x256 .i32) (harg6 : arg6.IsWhole) (arg7 : Memref sig .tc .vmem S512x256 .bf16) (harg7 : arg7.IsWhole) (arg8 : Memref sig .tc .vmem S512x256 .bf16) (harg8 : arg8.IsWhole) (arg9 : Memref sig .tc .vmem S512x256 .bf16) (harg9 : arg9.IsWhole) (arg10 : Memref sig .tc .vmem S512x256 .f32) (harg10 : arg10.IsWhole)

/-- Coefficient slab m (m = 0, 1, 2, 3) of the point's coefficient block: its [1, 1, 256, 256] sub-block at offset m on the second axis. -/
def slab0 (x1 : Vec F S1x4x256x256 .bf16) : Vec F S1x1x256x256 .bf16 :=
  View.ld x1 (Rect.unit (s := S1x4x256x256) ![0, 0, 0, 0] S1x1x256x256.size inb_S1x4x256x256_S1x1x256x256_0_0_0_0)
def slab1 (x1 : Vec F S1x4x256x256 .bf16) : Vec F S1x1x256x256 .bf16 :=
  View.ld x1 (Rect.unit (s := S1x4x256x256) ![0, 1, 0, 0] S1x1x256x256.size inb_S1x4x256x256_S1x1x256x256_0_1_0_0)
def slab2 (x1 : Vec F S1x4x256x256 .bf16) : Vec F S1x1x256x256 .bf16 :=
  View.ld x1 (Rect.unit (s := S1x4x256x256) ![0, 2, 0, 0] S1x1x256x256.size inb_S1x4x256x256_S1x1x256x256_0_2_0_0)
def slab3 (x1 : Vec F S1x4x256x256 .bf16) : Vec F S1x1x256x256 .bf16 :=
  View.ld x1 (Rect.unit (s := S1x4x256x256) ![0, 3, 0, 0] S1x1x256x256.size inb_S1x4x256x256_S1x1x256x256_0_3_0_0)

/-- The accumulator after one grid point: the accumulator before it plus the four masked products of the point's interval,
    from the stored interval words `w`, the stored powers `p1 p2 p3` and the point's coefficient block `x1`. -/
def stepV (i : grid0.Coords) (x1 : Vec F S1x4x256x256 .bf16) (w : Vec F S512x256 .i32) (p1 p2 p3 : Vec F S512x256 .bf16)
    (acc : Vec F S512x256 .f32) : FVec F S512x256 .f32 :=
  k0_pay1 (k0_pay12 i w p2) (k0_pay13 i w p3) (k0_pay14 (slab2 x1)) (k0_pay15 (slab3 x1)) acc
    (k0_pay16 i w p1 (slab0 x1) (slab1 x1))

section firstPoint
variable (hc0 : cond0_0 i) (hc1 : ¬cond0_1 i) (x0 : Vec F S512x256 .f32) (x1 : Vec F S1x4x256x256 .bf16) (x2 : Vec F S1x256 .f32)

/-- First point of a tile: the interval words stored. -/
theorem sA0 : sout0_A_0 c i arg2 harg2 arg3 harg3 arg4 harg4 arg5 harg5 arg6 harg6 arg7 harg7 arg8 harg8 arg9 harg9 arg10 harg10 hc0 hc1 x0 x1 x2 = k0_pay5 x0 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_unit_zero hz]
  simp only [View.readAt_eq_ld, harg2.read_unread, View.ld_unit_zero (S := S512x256) hz]

/-- First point of a tile: the offsets stored. -/
theorem sA1 : sout0_A_1 c i arg2 harg2 arg3 harg3 arg4 harg4 arg5 harg5 arg6 harg6 arg7 harg7 arg8 harg8 arg9 harg9 arg10 harg10 hc0 hc1 x0 x1 x2 = k0_pay6 x0 := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_unit_zero hz]
  simp only [View.readAt_eq_ld, harg2.read_unread, View.ld_unit_zero (S := S512x256) hz]

/-- First point of a tile: the squared offsets stored. -/
theorem sA2 : sout0_A_2 c i arg2 harg2 arg3 harg3 arg4 harg4 arg5 harg5 arg6 harg6 arg7 harg7 arg8 harg8 arg9 harg9 arg10 harg10 hc0 hc1 x0 x1 x2 = k0_pay7 x0 := by
  unfold sout0_A_2
  rw [View.read_writes_eq_canon _ _ _ (scover0_A_2 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_unit_zero hz]
  simp only [View.readAt_eq_ld, harg2.read_unread, View.ld_unit_zero (S := S512x256) hz]

/-- First point of a tile: the cubed offsets stored. -/
theorem sA3 : sout0_A_3 c i arg2 harg2 arg3 harg3 arg4 harg4 arg5 harg5 arg6 harg6 arg7 harg7 arg8 harg8 arg9 harg9 arg10 harg10 hc0 hc1 x0 x1 x2 = k0_pay8 x0 := by
  unfold sout0_A_3
  rw [View.read_writes_eq_canon _ _ _ (scover0_A_3 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_unit_zero hz]
  simp only [View.readAt_eq_ld, harg2.read_unread, View.ld_unit_zero (S := S512x256) hz]

/-- First point of a tile: the accumulator is one step from zero, over the values just stored. -/
theorem sA4 : sout0_A_4 c i arg2 harg2 arg3 harg3 arg4 harg4 arg5 harg5 arg6 harg6 arg7 harg7 arg8 harg8 arg9 harg9 arg10 harg10 hc0 hc1 x0 x1 x2
    = stepV i x1 (k0_pay5 x0) (k0_pay6 x0) (k0_pay7 x0) (k0_pay8 x0) (k0_pay10 k0_pay9) := by
  unfold sout0_A_4
  rw [View.read_writes_eq_canon _ _ _ (scover0_A_4 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S512x256) hz]
  simp only [View.readCov_unit_zero (S := S512x256) _ hz, View.readAt_eq_ld, harg2.read_unread, harg3.read_unread,
    View.ld_unit_zero (S := S512x256) hz]
  rfl

end firstPoint

section laterPoints
variable (x0 : Vec F S512x256 .f32) (x1 : Vec F S1x4x256x256 .bf16) (x2 : Vec F S1x256 .f32)
  (xs0 : Vec F S512x256 .i32) (xs1 xs2 xs3 : Vec F S512x256 .bf16) (xs4 : Vec F S512x256 .f32)

/-- A middle point of a tile: the accumulator is one step on from what the point before left. -/
theorem sB4 (hc0 : ¬cond0_0 i) (hc1 : ¬cond0_1 i) :
    sout0_B_4 c i arg2 harg2 arg3 harg3 arg4 harg4 arg5 harg5 arg6 harg6 arg7 harg7 arg8 harg8 arg9 harg9 arg10 harg10 hc0 hc1 x0 x1 x2 xs0 xs1 xs2 xs3 xs4 = stepV i x1 xs0 xs1 xs2 xs3 xs4 := by
  unfold sout0_B_4
  rw [View.read_writes_eq_canon _ _ _ (scover0_B_4 c i arg2 harg2 arg3 harg3 arg4 harg4 arg5 harg5 arg6 harg6 arg7 harg7 arg8 harg8 arg9 harg9 arg10 harg10 hc0 hc1 x0 x1 x2 xs0 xs1 xs2 xs3 xs4)]
  unfold kernelRun0_B
  dsimp only
  sl_unfold_words
  rw [View.canon_unit_zero hz]
  simp only [View.readAt_eq_ld, harg3.read_unread, harg6.read_unread, harg7.read_unread, harg8.read_unread, harg9.read_unread,
    harg10.read_unread, View.ld_unit_zero (S := S512x256) hz]
  rfl

/-- The last point of a tile: the accumulator likewise, -/
theorem sC4 (hc0 : ¬cond0_0 i) (hc1 : cond0_1 i) :
    sout0_C_4 c i arg2 harg2 arg3 harg3 arg4 harg4 arg5 harg5 arg6 harg6 arg7 harg7 arg8 harg8 arg9 harg9 arg10 harg10 hc0 hc1 x0 x1 x2 xs0 xs1 xs2 xs3 xs4 = stepV i x1 xs0 xs1 xs2 xs3 xs4 := by
  unfold sout0_C_4
  rw [View.read_writes_eq_canon _ _ _ (scover0_C_4 c i arg2 harg2 arg3 harg3 arg4 harg4 arg5 harg5 arg6 harg6 arg7 harg7 arg8 harg8 arg9 harg9 arg10 harg10 hc0 hc1 x0 x1 x2 xs0 xs1 xs2 xs3 xs4)]
  unfold kernelRun0_C
  dsimp only
  sl_unfold_words
  rw [View.canon_unit_zero hz]
  simp only [View.readAt_eq_ld, harg3.read_unread, harg6.read_unread, harg7.read_unread, harg8.read_unread, harg9.read_unread,
    harg10.read_unread, View.ld_unit_zero (S := S512x256) hz]
  rfl

/-- and the output block: that accumulator plus the bias row. -/
theorem oC3 (hc0 : ¬cond0_0 i) (hc1 : cond0_1 i) :
    out0_C_3 c i arg2 harg2 arg3 harg3 arg4 harg4 arg5 harg5 arg6 harg6 arg7 harg7 arg8 harg8 arg9 harg9 arg10 harg10 hc0 hc1 x0 x1 x2 xs0 xs1 xs2 xs3 xs4 = k0_pay2 (stepV i x1 xs0 xs1 xs2 xs3 xs4) x2 := by
  unfold out0_C_3
  rw [View.read_writes_eq_canon _ _ _ (cover0_C_3 c i arg2 harg2 arg3 harg3 arg4 harg4 arg5 harg5 arg6 harg6 arg7 harg7 arg8 harg8 arg9 harg9 arg10 harg10 hc0 hc1 x0 x1 x2 xs0 xs1 xs2 xs3 xs4)]
  unfold kernelRun0_C
  dsimp only
  sl_unfold_words
  rw [View.canon_unit_zero hz]
  simp only [View.readCov_unit_zero (S := S512x256) _ hz, View.readAt_eq_ld, harg3.read_unread, harg4.read_unread, harg6.read_unread,
    harg7.read_unread, harg8.read_unread, harg9.read_unread, harg10.read_unread, View.ld_unit_zero (S := S512x256) hz,
    View.ld_unit_zero (S := S1x256) hz]
  rfl

end laterPoints

end Cert.KernelIdeal.KanVal

end
-- ==== Proof.KanChain.lean ====
/-
  The carried state of the blocked layer, point by point.

  Grid point n = 19 q + k is step k of batch tile q. After it the five scratch arrays hold: the interval words, the
  offsets, their squares and their cubes of the tile's samples (stored at step 0 of the tile and untouched since), and the
  running total of the steps 0 … k of the tile (started from zero at step 0). At the last step of a tile the output block
  is that total plus the bias row. This is proved by induction on the point, never by listing the 38 points.
-/
import proofs.«166700_j30588757082465_2_alg».proof.Proof.KanPieces

noncomputable section

open Idealize.ShloMosaic Idealize.ShloMosaic.TcCoe Idealize.SL.Sem
open Idealize.ShloMosaic.Pipeline (Dat)

namespace Cert.KernelIdeal.KanVal

open Cert.KernelIdeal Cert.KernelIdeal.Gen

variable {F : FTy → Type} [FloatOps F]
variable (m : (ℓ : Loc nD τ sig) → Buf (Elt F) ℓ)

/-- The samples of the tile point n belongs to, as the tile's first point found them. -/
def xAt (c : Dev nD) : (n : ℕ) → n < cfg0.N → Vec F S512x256 .f32
  | 0, h => iblk m c 0 ⟨0, h⟩
  | n + 1, h => if (n + 1) % 19 = 0 then iblk m c 0 ⟨n + 1, h⟩ else xAt c n (Nat.lt_of_succ_lt h)

/-- The running total after point n: one step from zero at a tile's first point, one step on from the point before otherwise. -/
def accV (c : Dev nD) : (n : ℕ) → n < cfg0.N → Vec F S512x256 .f32
  | 0, h => stepV (grid0.coords ⟨0, h⟩) (iblk m c 1 ⟨0, h⟩) (k0_pay5 (xAt m c 0 h)) (k0_pay6 (xAt m c 0 h)) (k0_pay7 (xAt m c 0 h))
      (k0_pay8 (xAt m c 0 h)) (k0_pay10 k0_pay9)
  | n + 1, h =>
    if (n + 1) % 19 = 0 then
      stepV (grid0.coords ⟨n + 1, h⟩) (iblk m c 1 ⟨n + 1, h⟩) (k0_pay5 (xAt m c (n + 1) h)) (k0_pay6 (xAt m c (n + 1) h))
        (k0_pay7 (xAt m c (n + 1) h)) (k0_pay8 (xAt m c (n + 1) h)) (k0_pay10 k0_pay9)
    else
      stepV (grid0.coords ⟨n + 1, h⟩) (iblk m c 1 ⟨n + 1, h⟩) (k0_pay5 (xAt m c (n + 1) h)) (k0_pay6 (xAt m c (n + 1) h))
        (k0_pay7 (xAt m c (n + 1) h)) (k0_pay8 (xAt m c (n + 1) h)) (accV c n (Nat.lt_of_succ_lt h))

theorem xAt_first (c : Dev nD) (n : ℕ) (h : n < cfg0.N) (h0 : n % 19 = 0) : xAt m c n h = iblk m c 0 ⟨n, h⟩ := by
  cases n with
  | zero => rfl
  | succ n => exact if_pos h0

theorem xAt_later (c : Dev nD) (n : ℕ) (h : n + 1 < cfg0.N) (h0 : ¬(n + 1) % 19 = 0) :
    xAt m c (n + 1) h = xAt m c n (Nat.lt_of_succ_lt h) := if_neg h0

theorem accV_first (c : Dev nD) (n : ℕ) (h : n < cfg0.N) (h0 : n % 19 = 0) :
    accV m c n h = stepV (grid0.coords ⟨n, h⟩) (iblk m c 1 ⟨n, h⟩) (k0_pay5 (xAt m c n h)) (k0_pay6 (xAt m c n h))
      (k0_pay7 (xAt m c n h)) (k0_pay8 (xAt m c n h)) (k0_pay10 k0_pay9) := by
  cases n with
  | zero => rfl
  | succ n => unfold accV; exact if_pos h0

theorem accV_later (c : Dev nD) (n : ℕ) (h : n + 1 < cfg0.N) (h0 : ¬(n + 1) % 19 = 0) :
    accV m c (n + 1) h = stepV (grid0.coords ⟨n + 1, h⟩) (iblk m c 1 ⟨n + 1, h⟩) (k0_pay5 (xAt m c (n + 1) h))
      (k0_pay6 (xAt m c (n + 1) h)) (k0_pay7 (xAt m c (n + 1) h)) (k0_pay8 (xAt m c (n + 1) h))
      (accV m c n (Nat.lt_of_succ_lt h)) := by
  conv_lhs => unfold accV
  exact if_neg h0

/-- What the five scratch arrays hold after point n. -/
theorem scratch_eq (c : Dev nD) : ∀ (n : ℕ) (h : n < cfg0.N),
    (outsAt0 m c n h).2 = (k0_pay5 (xAt m c n h), k0_pay6 (xAt m c n h), k0_pay7 (xAt m c n h), k0_pay8 (xAt m c n h), accV m c n h)
  | 0, h => by
    rw [outsAt0_A m c ⟨0, h⟩ rfl (by show ¬(0 % 19 = 18); decide)]
    dsimp only
    rw [sA0, sA1, sA2, sA3, sA4]
    rfl
  | n + 1, h => by
    have hN : cfg0.N = 38 := N_0
    have ih := scratch_eq c n (Nat.lt_of_succ_lt h)
    by_cases h0 : (n + 1) % 19 = 0
    · have h1 : ¬(n + 1) % 19 = 18 := by omega
      rw [outsAt0_A m c ⟨n + 1, h⟩ h0 h1]
      dsimp only
      rw [sA0, sA1, sA2, sA3, sA4, xAt_first m c (n + 1) h h0]
      show _ = (_, _, _, _, accV m c (n + 1) h)
      unfold accV
      rw [if_pos h0, xAt_first m c (n + 1) h h0]
    · have hx := xAt_later m c n h h0
      by_cases h1 : (n + 1) % 19 = 18
      · rw [outsAt0_C m c ⟨n + 1, h⟩ h0 h1]
        dsimp only
        rw [sC4]
        unfold sout0_C_0 sout0_C_1 sout0_C_2 sout0_C_3
        show ((outsAt0 m c n _).2.1, (outsAt0 m c n _).2.2.1, (outsAt0 m c n _).2.2.2.1, (outsAt0 m c n _).2.2.2.2.1,
          stepV _ _ (outsAt0 m c n _).2.1 (outsAt0 m c n _).2.2.1 (outsAt0 m c n _).2.2.2.1 (outsAt0 m c n _).2.2.2.2.1 (outsAt0 m c n _).2.2.2.2.2) = _
        rw [ih, hx]
        show _ = (_, _, _, _, accV m c (n + 1) h)
        conv_rhs => unfold accV
        rw [if_neg h0, hx]
      · rw [outsAt0_B m c ⟨n + 1, h⟩ h0 h1]
        dsimp only
        rw [sB4]
        unfold sout0_B_0 sout0_B_1 sout0_B_2 sout0_B_3
        show ((outsAt0 m c n _).2.1, (outsAt0 m c n _).2.2.1, (outsAt0 m c n _).2.2.2.1, (outsAt0 m c n _).2.2.2.2.1,
          stepV _ _ (outsAt0 m c n _).2.1 (outsAt0 m c n _).2.2.1 (outsAt0 m c n _).2.2.2.1 (outsAt0 m c n _).2.2.2.2.1 (outsAt0 m c n _).2.2.2.2.2) = _
        rw [ih, hx]
        show _ = (_, _, _, _, accV m c (n + 1) h)
        conv_rhs => unfold accV
        rw [if_neg h0, hx]

/-- At the last step of a tile the output block holds the total plus the bias row. -/
theorem out_eq (c : Dev nD) (t : Fin cfg0.N) (h1 : t.val % 19 = 18) :
    (outsAt0 m c t.val t.isLt).1 = k0_pay2 (accV m c t.val t.isLt) (iblk m c 2 t) := by
  have hN : cfg0.N = 38 := N_0
  obtain ⟨n, h⟩ := t
  cases n with
  | zero => exact absurd h1 (by show ¬(0 % 19 = 18); decide)
  | succ n =>
    have h0 : ¬(n + 1) % 19 = 0 := by dsimp only at h1; omega
    have ih := scratch_eq m c n (Nat.lt_of_succ_lt h)
    have hx := xAt_later m c n h h0
    rw [outsAt0_C m c ⟨n + 1, h⟩ h0 h1]
    dsimp only
    rw [oC3]
    show k0_pay2 (stepV _ _ (outsAt0 m c n _).2.1 (outsAt0 m c n _).2.2.1 (outsAt0 m c n _).2.2.2.1 (outsAt0 m c n _).2.2.2.2.1 (outsAt0 m c n _).2.2.2.2.2) _ = _
    rw [ih]
    conv_rhs => unfold accV
    rw [if_neg h0, hx]

end Cert.KernelIdeal.KanVal

end
-- ==== Proof.KanBlocks.lean ====
/-
  The blocks of the blocked layer's four windows, read as entries of the argument arrays.

  Grid point t is step t mod 19 of batch tile t div 19 (two tiles of 512 rows). At point t the samples block is rows
  512 (t div 19) … of x; the coefficient block is slab t mod 19 of the coefficients laid out [interval, power, input, output],
  that is entry (power m, input q, output j) of the block is coeffs (j, q, t mod 19, m); the bias block is the bias as a row;
  and the output block is rows 512 (t div 19) … of the result.
-/
import proofs.«166700_j30588757082465_2_alg».proof.Proof.KanChain
import Idealize.ShloMosaic.Lib.StableHlo.Run
import Idealize.ShloMosaic.Lib.ValueLayout

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.KanVal

open Cert.KernelIdeal Cert.KernelIdeal.Gen

variable (m : (ℓ : Loc nD τ sig) → Buf (Elt Ideal) ℓ)

/-- The printed index maps over the grid: the samples and output blocks move with the tile, the coefficient block with the
    step, the bias block never; and the step number is the second grid coordinate. -/
theorem idx_facts : ∀ t : Fin cfg0.N,
    win0_0.index t (0 : Fin 2) = t.val / 19 ∧ win0_0.index t (1 : Fin 2) = 0
    ∧ win0_1.index t (0 : Fin 4) = t.val % 19 ∧ win0_1.index t (1 : Fin 4) = 0
    ∧ win0_1.index t (2 : Fin 4) = 0 ∧ win0_1.index t (3 : Fin 4) = 0
    ∧ win0_2.index t (0 : Fin 2) = 0 ∧ win0_2.index t (1 : Fin 2) = 0
    ∧ win0_3.index t (0 : Fin 2) = t.val / 19 ∧ win0_3.index t (1 : Fin 2) = 0
    ∧ (grid0.coords t 1).val = t.val % 19 :=
  (by decide +kernel : ∀ t : Fin grid0.N, _)

theorem tile_lt (t : Fin cfg0.N) (r : Fin 512) : 512 * (t.val / 19) + r.val < 1024 := by
  have hN : cfg0.N = 38 := N_0
  have := t.isLt
  have := r.isLt
  omega

theorem step_lt (t : Fin cfg0.N) : t.val % 19 < 19 := Nat.mod_lt _ (by decide)

/-- The samples block at a point: rows 512 (t div 19) + r of x. -/
theorem xblk_apply (c : Dev nD) (t : Fin cfg0.N) (r : Fin 512) (q : Fin 256) :
    (iblk m c 0 t : Vec Ideal S512x256 .f32) (ix2 r q)
      = m ((c : Thread nD τ).loc main_arg0) (ix2 ⟨512 * (t.val / 19) + r.val, tile_lt t r⟩ q) := by
  obtain ⟨e0, e1, -⟩ := idx_facts t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 2) * 512 + 1 * r.val = 512 * (t.val / 19) + r.val; rw [e0]; omega
  | ⟨1, _⟩ => show win0_0.index t (1 : Fin 2) * 256 + 1 * q.val = q.val; rw [e1]; omega

/-- What the region finds as its coefficient operand: the coefficients transposed to [interval, power, input, output]
    (the change of format is the identity on the extended reals). -/
theorem V_coef (c : Dev nD) : (V m c main_v1 : S19x4x256x256.Idx → EReal)
    = truncf (F := Ideal) .bf16 (transpose S19x4x256x256 [2, 3, 1, 0] (m ((c : Thread nD τ).loc main_arg1))
        transposes_S256x256x19x4_S19x4x256x256_2_3_1_0) bitsLt_bf16_f32 := by
  dsimp only [V, hostOps0]
  after_results

/-- The coefficient block at a point: entry (power mm, input q, output j) is coeffs (j, q, t mod 19, mm). -/
theorem cblk_apply (c : Dev nD) (t : Fin cfg0.N) (u : Fin 1) (mm : Fin 4) (q j : Fin 256) :
    (iblk m c 1 t : Vec Ideal S1x4x256x256 .bf16) (ix4 u mm q j)
      = m ((c : Thread nD τ).loc main_arg1) (ix4 j q ⟨t.val % 19, step_lt t⟩ mm) := by
  obtain ⟨-, -, e0, e1, e2, e3, -⟩ := idx_facts t
  have hu : u.val = 0 := by omega
  have hemb : ((cfg0.win 1).blk t).view.emb (ix4 u mm q j) = (ix4 (⟨t.val % 19, step_lt t⟩ : Fin 19) mm q j : S19x4x256x256.Idx) :=
    funext fun a => Fin.ext (by
      match a with
      | ⟨0, _⟩ => show win0_1.index t (0 : Fin 4) * 1 + 1 * u.val = t.val % 19; rw [e0, hu]; omega
      | ⟨1, _⟩ => show win0_1.index t (1 : Fin 4) * 4 + 1 * mm.val = mm.val; rw [e1]; omega
      | ⟨2, _⟩ => show win0_1.index t (2 : Fin 4) * 256 + 1 * q.val = q.val; rw [e2]; omega
      | ⟨3, _⟩ => show win0_1.index t (3 : Fin 4) * 256 + 1 * j.val = j.val; rw [e3]; omega)
  unfold iblk
  rw [View.read_apply]
  show (V m c main_v1 : S19x4x256x256.Idx → EReal) _ = _
  rw [hemb, V_coef, truncf_apply]
  exact transpose_apply _ _ _ _ _ fun b => match b with
    | ⟨0, _⟩ => rfl
    | ⟨1, _⟩ => rfl
    | ⟨2, _⟩ => rfl
    | ⟨3, _⟩ => rfl

/-- What the region finds as its bias operand: the bias as a [1, 256] row. -/
theorem V_bias (c : Dev nD) : (V m c main_v2 : S1x256.Idx → EReal)
    = shapeCast S1x256 (m ((c : Thread nD τ).loc main_arg2)) shapeCasts_S256_S1x256 := by
  dsimp only [V, hostOps0]
  after_results
  rfl

/-- The bias block at any point: the bias row. -/
theorem bblk_apply (c : Dev nD) (t : Fin cfg0.N) (u : Fin 1) (j : Fin 256) :
    (iblk m c 2 t : Vec Ideal S1x256 .f32) (ix2 u j) = m ((c : Thread nD τ).loc main_arg2) (ix1 j) := by
  obtain ⟨-, -, -, -, -, -, e0, e1, -⟩ := idx_facts t
  have hu : u.val = 0 := by omega
  have hemb : ((cfg0.win 2).blk t).view.emb (ix2 u j) = (ix2 u j : S1x256.Idx) :=
    funext fun a => Fin.ext (by
      match a with
      | ⟨0, _⟩ => show win0_2.index t (0 : Fin 2) * 1 + 1 * u.val = u.val; rw [e0]; omega
      | ⟨1, _⟩ => show win0_2.index t (1 : Fin 2) * 256 + 1 * j.val = j.val; rw [e1]; omega)
  unfold iblk
  rw [View.read_apply]
  show (V m c main_v2 : S1x256.Idx → EReal) _ = _
  rw [hemb, V_bias]
  exact shapeCast_a_1a_apply _ _ u j

end Cert.KernelIdeal.KanVal

end
-- ==== Proof.KanSpec.lean ====
/-
  The layer as one function of its three arguments, and the pieces the two programs are compared through.

  A sample x falls in the knot interval number  clip(floor((x + 5) / h), 0, 18)  (h the single-precision word nearest 10/19)
  and sits at the offset  t = x - (-5 + number * h)  from that interval's left knot.  Output entry (b, j) is

      0 + (sum over the 256 input features i of the cubic  ((d t + c) t + b') t + a  in the offset t of x(b, i), with
           (a, b', c, d) the four coefficients stored for (output j, input i, interval of x(b, i)))  + bias(j).

  The blocked program reaches the same entry by nineteen accumulation steps, one per interval number k: step k adds
  four products over the features of the masked powers  [interval = k],  [interval = k] t,  [interval = k] t^2,
  [interval = k] t^3  with the coefficient slabs of interval k.  `stepE` is one such step at one entry and `accE` the
  running total after steps 0 … n, started from zero.
-/
import Idealize.ShloMosaic.Lib.ValueIdx
import Idealize.ShloMosaic.PureOps.Ideal
import Idealize.ShloMosaic.PureOps.Ideal.Laws

noncomputable section

open scoped BigOperators

namespace Cert.Kan

open Idealize.ShloMosaic Idealize.ShloMosaic.ValueIdx

abbrev SX : Shape := ⟨2, ![1024, 256]⟩
abbrev SC : Shape := ⟨4, ![256, 256, 19, 4]⟩
abbrev SB : Shape := ⟨1, ![256]⟩

/-- The knot interval of a sample, as a 32-bit word: floor((x - (-5)) / h) converted to an integer, then clipped
    below at 0 and above at 18. -/
def knotW (x : EReal) : BitVec 32 :=
  IntOp.minsi 18#32 (IntOp.maxsi 0#32 (FloatOps.fptosi (F := Ideal) (φ := .f32) 32
    (FloatOps.floor (F := Ideal) (φ := .f32) (FloatOps.divf (F := Ideal) (φ := .f32)
      (FloatOps.subf (F := Ideal) (φ := .f32) x (FloatOps.ofBits (F := Ideal) .f32 0xC0A00000#32))
      (FloatOps.ofBits (F := Ideal) .f32 0x3F06BCA2#32)))))

/-- Clipping into [0, 18] leaves a word whose value is below 19, whatever was clipped. -/
theorem clip_lt (v : BitVec 32) : (IntOp.minsi 18#32 (IntOp.maxsi 0#32 v)).toNat < 19 := by
  have h18 : (18#32 : BitVec 32).toInt = 18 := by decide
  have h0 : (0#32 : BitVec 32).toInt = 0 := by decide
  have hv := BitVec.toInt_eq_toNat_cond v
  have hvlt := v.isLt
  unfold IntOp.minsi IntOp.maxsi
  by_cases hneg : v.slt 0#32 = true
  · rw [if_pos hneg, if_neg (by decide)]
    decide
  · rw [if_neg hneg]
    by_cases hbig : (18#32 : BitVec 32).slt v = true
    · rw [if_pos hbig]; decide
    · rw [if_neg hbig]
      simp only [BitVec.slt, decide_eq_true_eq, h18, h0] at hneg hbig
      split_ifs at hv <;> omega

theorem knotW_lt (x : EReal) : (knotW x).toNat < 19 := clip_lt _

/-- The knot interval of a sample as a number below 19. -/
def kidx (x : EReal) : Fin 19 := ⟨(knotW x).toNat, knotW_lt x⟩

/-- The offset of a sample from the left knot of its interval: x - (-5 + number * h). -/
def offs (x : EReal) : EReal :=
  FloatOps.subf (F := Ideal) (φ := .f32) x (FloatOps.addf (F := Ideal) (φ := .f32) (FloatOps.ofBits (F := Ideal) .f32 0xC0A00000#32)
    (FloatOps.mulf (F := Ideal) (φ := .f32) (FloatOps.sitofp (F := Ideal) .f32 (knotW x)) (FloatOps.ofBits (F := Ideal) .f32 0x3F06BCA2#32)))

/-- The cubic a + b t + c t^2 + d t^3 in nested form. -/
def hornerE (a b c d t : EReal) : EReal := ((d * t + c) * t + b) * t + a

/-- Output entry (b, j) of the layer. -/
def Gat (x : SX.Idx → EReal) (cf : SC.Idx → EReal) (bias : SB.Idx → EReal) (b : Fin 1024) (j : Fin 256) : EReal :=
  (Ideal.ofBits .f32 0x00000000#32 + ∑ i : Fin 256,
    hornerE (cf (ix4 j i (kidx (x (ix2 b i))) (0 : Fin 4))) (cf (ix4 j i (kidx (x (ix2 b i))) (1 : Fin 4)))
      (cf (ix4 j i (kidx (x (ix2 b i))) (2 : Fin 4))) (cf (ix4 j i (kidx (x (ix2 b i))) (3 : Fin 4))) (offs (x (ix2 b i))))
  + bias (ix1 j)

/-- The layer: every output entry. -/
def G (x : SX.Idx → EReal) (cf : SC.Idx → EReal) (bias : SB.Idx → EReal) : SX.Idx → EReal :=
  fun p => Gat x cf bias (p 0) (p 1)

/-- The mask of interval k at a feature whose interval word is w: the number 1 when w = k, else 0. -/
def maskE (w k : BitVec 32) : EReal := FloatOps.sitofp (F := Ideal) .f32 ((IntOp.cmpi .eq w k).setWidth 32)

/-- One accumulation step at one output entry: with w the interval words of the row's features, p1 p2 p3 the first three
    powers of their offsets and c0 … c3 the step's four coefficient columns, the four masked products, added left to right. -/
def stepE (k : BitVec 32) (w : Fin 256 → BitVec 32) (p1 p2 p3 c0 c1 c2 c3 : Fin 256 → EReal) : EReal :=
  (((∑ i : Fin 256, maskE (w i) k * c0 i) + (∑ i : Fin 256, (maskE (w i) k * p1 i) * c1 i))
    + (∑ i : Fin 256, (maskE (w i) k * p2 i) * c2 i)) + (∑ i : Fin 256, (maskE (w i) k * p3 i) * c3 i)

/-- The running total at one output entry after steps 0 … n: zero plus step 0, then each later step added on the right.
    `c k m` is the coefficient column of interval k and power m. -/
def accE (w : Fin 256 → BitVec 32) (p1 p2 p3 : Fin 256 → EReal) (c : Fin 19 → Fin 4 → Fin 256 → EReal) :
    (n : ℕ) → n < 19 → EReal
  | 0, h => Ideal.ofBits .f32 0x00000000#32
      + stepE (BitVec.ofNat 32 0) w p1 p2 p3 (c ⟨0, h⟩ 0) (c ⟨0, h⟩ 1) (c ⟨0, h⟩ 2) (c ⟨0, h⟩ 3)
  | n + 1, h => accE w p1 p2 p3 c n (Nat.lt_of_succ_lt h)
      + stepE (BitVec.ofNat 32 (n + 1)) w p1 p2 p3 (c ⟨n + 1, h⟩ 0) (c ⟨n + 1, h⟩ 1) (c ⟨n + 1, h⟩ 2) (c ⟨n + 1, h⟩ 3)

end Cert.Kan

end
-- ==== Proof.LibDot.lean ====
/-
  A plain matrix product read at an entry. For dimension numbers that contract the left operand's columns against the
  right operand's rows, with no batch axis, the contraction sum at row `a` and column `b` is the textbook
  sum over `k` of `l (a, k) * r (k, b)`, both for the accumulate-into-zero product of the matrix unit and for
  the host's general dot product, at the exact extended-real instance.
-/
import Idealize.ShloMosaic.Lib.ValueIdx
import Idealize.ShloMosaic.PureOps.Ideal.Laws

noncomputable section

open scoped BigOperators

namespace Cert.LibDot

open Idealize.ShloMosaic Idealize.ShloMosaic.ValueIdx

/-- The six axis lists of a rows-by-columns product. -/
structure IsPlain {M K N : Nat} (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

variable {M K N : Nat} (D : DotDims ⟨2, ![M, K]⟩ ⟨2, ![K, N]⟩ ⟨2, ![M, N]⟩) (hD : IsPlain D)

include hD in
theorem contr_rank : D.contr.rank = 1 := by rw [D.rank_contr, hD.lc]; rfl

include hD in
theorem contr_size : D.contr.size ⟨0, by rw [contr_rank D hD]; exact Nat.one_pos⟩ = K := by
  have h := D.size_contr 0 (by rw [hD.lc]; exact Nat.one_pos)
  rw [h]
  simp only [hD.lc]
  rfl

include hD in
/-- The left operand is read at row `a` of the result and at the contraction coordinate. -/
theorem lhs0 (j : (⟨2, ![M, N]⟩ : Shape).Idx) (q : D.contr.Idx) : (D.lhsIdx j q 0).val = (j 0).val := by
  unfold DotDims.lhsIdx
  rw [dif_neg (by rw [hD.lb]; exact List.not_mem_nil), dif_pos (by rw [hD.ln]; exact List.mem_singleton.mpr rfl)]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [hD.lb, hD.ln])

include hD in
theorem rhs1 (j : (⟨2, ![M, N]⟩ : Shape).Idx) (q : D.contr.Idx) : (D.rhsIdx j q 1).val = (j 1).val := by
  unfold DotDims.rhsIdx
  rw [dif_neg (by rw [hD.rb]; exact List.not_mem_nil), dif_pos (by rw [hD.rn]; exact List.mem_singleton.mpr rfl)]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [hD.lb, hD.ln, hD.rn])

include hD in
/-- The contraction sum at (a, b) is the sum over `k` of the row entry times the column entry. -/
theorem plain_sum (l : (⟨2, ![M, K]⟩ : Shape).Idx → EReal) (r : (⟨2, ![K, N]⟩ : Shape).Idx → EReal) (a : Fin M) (b : Fin N) :
    ∑ q : D.contr.Idx, l (D.lhsIdx (ix2 a b) q) * r (D.rhsIdx (ix2 a b) q) = ∑ k : Fin K, l (ix2 a k) * r (ix2 k b) := by
  rw [← Equiv.sum_comp (contrEquiv1 D K (contr_rank D hD) (contr_size D hD)).symm]
  refine Finset.sum_congr rfl fun k _ => ?_
  have hk := contrEquiv1_symm_val D K (contr_rank D hD) (contr_size D hD) k
  have el : D.lhsIdx (ix2 a b) ((contrEquiv1 D K (contr_rank D hD) (contr_size D hD)).symm k) = ix2 a k :=
    funext fun x => Fin.ext (by
      match x with
      | ⟨0, _⟩ => exact lhs0 D hD _ _
      | ⟨1, _⟩ => exact (D.lhsIdx_val_of_single hD.lc _ _).trans hk)
  have er : D.rhsIdx (ix2 a b) ((contrEquiv1 D K (contr_rank D hD) (contr_size D hD)).symm k) = ix2 k b :=
    funext fun x => Fin.ext (by
      match x with
      | ⟨0, _⟩ => exact (D.rhsIdx_val_of_single hD.rc _ _).trans hk
      | ⟨1, _⟩ => exact rhs1 D hD _ _)
  rw [el, er]

include hD in
/-- The matrix unit's product into a zero accumulator, at an entry. -/
theorem matmul_zero_apply {φ₁ φ₂ : FTy} (prec : Option ContractPrecision)
    (l : FVec Ideal ⟨2, ![M, K]⟩ φ₁) (r : FVec Ideal ⟨2, ![K, N]⟩ φ₂) (a : Fin M) (b : Fin N) :
    FloatOps.matmul D prec l r (constant ⟨2, ![M, N]⟩ .f32 0x00000000#32) (ix2 a b) = ∑ k : Fin K, l (ix2 a k) * r (ix2 k b) :=
  (Ideal.matmul_constant_zero_apply D prec l r (ix2 a b)).trans (plain_sum D hD l r a b)

include hD in
/-- The host's general dot product, at an entry. -/
theorem dotGeneral_apply {φ₁ φ₂ : FTy} (prec : Option ContractPrecision) (sched : HostSchedule)
    (l : FVec Ideal ⟨2, ![M, K]⟩ φ₁) (r : FVec Ideal ⟨2, ![K, N]⟩ φ₂) (a : Fin M) (b : Fin N) :
    FloatOps.dotGeneral D prec sched l r (ix2 a b) = ∑ k : Fin K, l (ix2 a k) * r (ix2 k b) :=
  (Ideal.dotGeneral_apply D prec sched l r (ix2 a b)).trans (plain_sum D hD l r a b)

end Cert.LibDot

end
-- ==== Proof.KanStep.lean ====
/-
  One grid step of the blocked layer read at one output entry, on the extended reals.

  The new accumulator at row r and output column j is the old one there plus the four masked products of KanSpec's
  `stepE`: the mask of the step's interval at each feature of row r, alone and times the stored offset, its square and
  its cube, each summed against the column j of the matching coefficient slab.
-/
import proofs.«166700_j30588757082465_2_alg».proof.Proof.KanPieces
import proofs.«166700_j30588757082465_2_alg».proof.Proof.KanSpec
import proofs.«166700_j30588757082465_2_alg».proof.Proof.LibDot
import Idealize.ShloMosaic.Lib.ValueLayout

noncomputable section

open scoped BigOperators
open Idealize.ShloMosaic Idealize.ShloMosaic.TcCoe Idealize.SL.Sem Idealize.ShloMosaic.ValueIdx

namespace Cert.KernelIdeal.KanVal

open Cert.KernelIdeal Cert.KernelIdeal.Gen

/-- The step's products contract the features: the left operand's columns against the right operand's rows. -/
theorem dot_plain : Cert.LibDot.IsPlain dot_S512x256_S256x256_S512x256_1_0_0_1_n_n := ⟨rfl, rfl, rfl, rfl, rfl, rfl⟩

/-- A [1, 1, 256, 256] slab viewed as a [256, 256] matrix keeps its entries. -/
theorem slabCast_apply {α : Type} (v : S1x1x256x256.Idx → α) (k j : Fin 256) :
    shapeCast S256x256 v shapeCasts_S1x1x256x256_S256x256 (ix2 k j) = v (ix4 (0 : Fin 1) (0 : Fin 1) k j) :=
  shapeCast_apply v _ _ _ (by
    rw [Shape.rowMajor_val_four, Shape.rowMajor_val_two]
    show ((0 * 1 + 0) * 256 + k.val) * 256 + j.val = k.val * 256 + j.val
    omega)

/-- Slab m of a coefficient block holds the block's entries at second coordinate m. -/
theorem slab0_apply {F : FTy → Type} [FloatOps F] (x1 : Vec F S1x4x256x256 .bf16) (k j : Fin 256) :
    slab0 x1 (ix4 (0 : Fin 1) (0 : Fin 1) k j) = x1 (ix4 (0 : Fin 1) (0 : Fin 4) k j) := by
  show x1 _ = x1 _
  refine congrArg x1 (funext fun a => Fin.ext ?_)
  match a with
  | ⟨0, _⟩ => rfl
  | ⟨1, _⟩ => rfl
  | ⟨2, _⟩ => show 0 + 1 * k.val = k.val; omega
  | ⟨3, _⟩ => show 0 + 1 * j.val = j.val; omega
theorem slab1_apply {F : FTy → Type} [FloatOps F] (x1 : Vec F S1x4x256x256 .bf16) (k j : Fin 256) :
    slab1 x1 (ix4 (0 : Fin 1) (0 : Fin 1) k j) = x1 (ix4 (0 : Fin 1) (1 : Fin 4) k j) := by
  show x1 _ = x1 _
  refine congrArg x1 (funext fun a => Fin.ext ?_)
  match a with
  | ⟨0, _⟩ => rfl
  | ⟨1, _⟩ => rfl
  | ⟨2, _⟩ => show 0 + 1 * k.val = k.val; omega
  | ⟨3, _⟩ => show 0 + 1 * j.val = j.val; omega
theorem slab2_apply {F : FTy → Type} [FloatOps F] (x1 : Vec F S1x4x256x256 .bf16) (k j : Fin 256) :
    slab2 x1 (ix4 (0 : Fin 1) (0 : Fin 1) k j) = x1 (ix4 (0 : Fin 1) (2 : Fin 4) k j) := by
  show x1 _ = x1 _
  refine congrArg x1 (funext fun a => Fin.ext ?_)
  match a with
  | ⟨0, _⟩ => rfl
  | ⟨1, _⟩ => rfl
  | ⟨2, _⟩ => show 0 + 1 * k.val = k.val; omega
  | ⟨3, _⟩ => show 0 + 1 * j.val = j.val; omega
theorem slab3_apply {F : FTy → Type} [FloatOps F] (x1 : Vec F S1x4x256x256 .bf16) (k j : Fin 256) :
    slab3 x1 (ix4 (0 : Fin 1) (0 : Fin 1) k j) = x1 (ix4 (0 : Fin 1) (3 : Fin 4) k j) := by
  show x1 _ = x1 _
  refine congrArg x1 (funext fun a => Fin.ext ?_)
  match a with
  | ⟨0, _⟩ => rfl
  | ⟨1, _⟩ => rfl
  | ⟨2, _⟩ => show 0 + 1 * k.val = k.val; omega
  | ⟨3, _⟩ => show 0 + 1 * j.val = j.val; omega

/-- The step's mask at a feature is the number 1 where the stored interval word is the step's, else 0. -/
theorem mask_apply (i : grid0.Coords) (w : Vec Ideal S512x256 .i32) (y : S512x256.Idx) :
    k0_pay11 (F := Ideal) i w y = Cert.Kan.maskE (w y) (BitVec.ofNat 32 (i 1).val) := rfl

/-- What the first point of a tile stores, read at a sample: its interval word, its offset, the square and the cube. -/
theorem pay5_apply (x : Vec Ideal S512x256 .f32) (y : S512x256.Idx) : k0_pay5 (F := Ideal) x y = Cert.Kan.knotW (x y) := by
  unfold k0_pay5; rw [shapeCast_self]; rfl
theorem pay6_apply (x : Vec Ideal S512x256 .f32) (y : S512x256.Idx) : k0_pay6 (F := Ideal) x y = Cert.Kan.offs (x y) := by
  unfold k0_pay6; rw [shapeCast_self]; rfl
theorem pay7_apply (x : Vec Ideal S512x256 .f32) (y : S512x256.Idx) :
    k0_pay7 (F := Ideal) x y = Cert.Kan.offs (x y) * Cert.Kan.offs (x y) := by
  unfold k0_pay7; rw [shapeCast_self]; rfl
theorem pay8_apply (x : Vec Ideal S512x256 .f32) (y : S512x256.Idx) :
    k0_pay8 (F := Ideal) x y = (Cert.Kan.offs (x y) * Cert.Kan.offs (x y)) * Cert.Kan.offs (x y) := by
  unfold k0_pay8; rw [shapeCast_self]; rfl

/-- The accumulator a tile starts from is zero everywhere. -/
theorem zero_apply (y : S512x256.Idx) : k0_pay10 (F := Ideal) k0_pay9 y = Ideal.ofBits .f32 0x00000000#32 := by
  unfold k0_pay10; rw [shapeCast_self]; rfl

/-- The output block: the accumulator plus the bias row repeated down the rows. -/
theorem pay2_apply (a : Vec Ideal S512x256 .f32) (b : Vec Ideal S1x256 .f32) (r : Fin 512) (j : Fin 256) :
    k0_pay2 (F := Ideal) a b (ix2 r j) = a (ix2 r j) + b (ix2 (0 : Fin 1) j) := by
  unfold k0_pay2
  rw [shapeCast_self]
  show a (ix2 r j) + broadcastTo S512x256 b broadcasts_S1x256_S512x256 (ix2 r j) = _
  rw [broadcastTo_1b_ab_apply]

/-- One grid step at the output entry (r, j). -/
theorem stepV_apply (i : grid0.Coords) (x1 : Vec Ideal S1x4x256x256 .bf16) (w : Vec Ideal S512x256 .i32)
    (p1 p2 p3 : Vec Ideal S512x256 .bf16) (acc : Vec Ideal S512x256 .f32) (r : Fin 512) (j : Fin 256) :
    stepV i x1 w p1 p2 p3 acc (ix2 r j)
      = acc (ix2 r j) + Cert.Kan.stepE (BitVec.ofNat 32 (i 1).val) (fun q => w (ix2 r q))
          (fun q => p1 (ix2 r q)) (fun q => p2 (ix2 r q)) (fun q => p3 (ix2 r q))
          (fun q => x1 (ix4 (0 : Fin 1) (0 : Fin 4) q j)) (fun q => x1 (ix4 (0 : Fin 1) (1 : Fin 4) q j))
          (fun q => x1 (ix4 (0 : Fin 1) (2 : Fin 4) q j)) (fun q => x1 (ix4 (0 : Fin 1) (3 : Fin 4) q j)) := by
  unfold stepV k0_pay1 k0_pay16 k0_pay12 k0_pay13 k0_pay14 k0_pay15
  rw [shapeCast_self]
  simp only [addf, matmul, Ideal.addf_def]
  rw [Cert.LibDot.matmul_zero_apply _ dot_plain, Cert.LibDot.matmul_zero_apply _ dot_plain,
    Cert.LibDot.matmul_zero_apply _ dot_plain, Cert.LibDot.matmul_zero_apply _ dot_plain]
  unfold Cert.Kan.stepE
  simp only [mulf, Ideal.mulf_def, slabCast_apply, slab0_apply, slab1_apply, slab2_apply, slab3_apply, mask_apply]

end Cert.KernelIdeal.KanVal

end
-- ==== Proof.LibReal.lean ====
/-
  Real numbers among the extended reals, and two of the host's activation functions on one number.

  * `IsReal x`: the extended real x is a real number. Sums, products, differences, finite sums, the exponential, a
    selection between two real numbers, and a single-precision constant whose exponent field is not all ones are real.
  * An extended real whose absolute value max(x, -x) is below plus infinity is real; so an array that passes the test
    "all |entries| < +inf" has real entries.
  * The scaled exponential linear unit and the softplus as a host program spells them, on one number: the first keeps
    real numbers real, the second sends a real number to a POSITIVE real number (max(r, 0) ≥ 0 and log(1 + e^{-|r|}) > 0;
    the guard "z differs from itself" of the lowering never fires on the extended reals).
  * For a nonzero denominator, a product with the reciprocal 1 / D is the quotient by D (the float 1.0 is the number 1).
-/
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

noncomputable section

open scoped BigOperators

namespace Cert.LibReal

open Idealize.ShloMosaic Idealize.ShloMosaic.ValueIdx

/-- An extended real that is a real number. -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.one : IsReal 1 := ⟨1, rfl⟩
theorem IsReal.add {a b : EReal} (ha : IsReal a) (hb : IsReal b) : IsReal (a + b) := by
  obtain ⟨r, rfl⟩ := ha; obtain ⟨s, rfl⟩ := hb; exact ⟨r + s, (EReal.coe_add r s).symm⟩
theorem IsReal.mul {a b : EReal} (ha : IsReal a) (hb : IsReal b) : IsReal (a * b) := by
  obtain ⟨r, rfl⟩ := ha; obtain ⟨s, rfl⟩ := hb; exact ⟨r * s, (EReal.coe_mul r s).symm⟩
theorem IsReal.sub {a b : EReal} (ha : IsReal a) (hb : IsReal b) : IsReal (a - b) := by
  obtain ⟨r, rfl⟩ := ha; obtain ⟨s, rfl⟩ := hb; exact ⟨r - s, (EReal.coe_sub r s).symm⟩
theorem IsReal.exp {a : EReal} (ha : IsReal a) : IsReal (Ideal.exp a) := by
  obtain ⟨r, rfl⟩ := ha; exact ⟨Real.exp r, rfl⟩

/-- A positive real number, as an extended real, is above zero. -/
theorem pos_of_real {s : EReal} (h : ∃ r : ℝ, 0 < r ∧ s = (r : EReal)) : 0 < s := by
  obtain ⟨r, hr, rfl⟩ := h; exact EReal.coe_pos.mpr hr

/-- A finite sum of real numbers, taken in the extended reals, is the real sum. -/
theorem sum_coe {ι : Type*} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

theorem IsReal.sum {ι : Type*} (s : Finset ι) (f : ι → EReal) (h : ∀ k, IsReal (f k)) : IsReal (∑ k ∈ s, f k) := by
  choose g hg using h
  refine ⟨∑ k ∈ s, g k, ?_⟩
  rw [← sum_coe]
  exact Finset.sum_congr rfl fun k _ => hg k

/-- The larger of two real numbers, taken in the extended reals. -/
theorem coe_max (a b : ℝ) : max (a : EReal) (b : EReal) = ((max a b : ℝ) : EReal) :=
  (EReal.coe_strictMono.monotone.map_max).symm

theorem select_real {c : BitVec 1} {a b : EReal} (ha : IsReal a) (hb : IsReal b) : IsReal (Scalar.select c a b) := by
  unfold Scalar.select; split_ifs <;> assumption

/-! ## Float constants -/

/-- A single-precision pattern whose exponent field is not all ones denotes a real number. -/
theorem ieee_real (b : BitVec 32) (h : (b.extractLsb' 23 8).toNat ≠ 255) : IsReal (Ideal.ofBits .f32 b) := by
  show IsReal (Ideal.ieee 8 23 b)
  unfold Ideal.ieee
  simp only []
  rw [if_neg (by simpa using h)]
  split_ifs <;> exact ⟨_, rfl⟩

theorem ofBits_one : Ideal.ofBits .f32 0x3F800000#32 = 1 := by
  simp [Ideal.ofBits, Ideal.ieee]
  rw [← EReal.coe_mul, ← EReal.coe_one]; congr 1; norm_num
theorem ofBits_two : Ideal.ofBits .f32 0x40000000#32 = ((2 : ℝ) : EReal) := by
  simp [Ideal.ofBits, Ideal.ieee]
  rw [← EReal.coe_mul]; congr 1; norm_num
theorem ofBits_inf : Ideal.ofBits .f32 0x7F800000#32 = ⊤ := by simp [Ideal.ofBits, Ideal.ieee]

/-- For a nonzero denominator, multiplying by the reciprocal is dividing. -/
theorem mul_div_one (a D : EReal) (hD : D ≠ 0) : a * Ideal.div (Ideal.ofBits .f32 0x3F800000#32) D = Ideal.div a D := by
  unfold Ideal.div
  rw [if_neg hD, if_neg hD, ofBits_one, one_mul]

/-! ## The finiteness test read back -/

/-- An extended real whose absolute value is below plus infinity is a real number. -/
theorem real_of_abs_lt_top (x : EReal) (h : Ideal.cmp .olt (max x (-x)) (Ideal.ofBits .f32 0x7F800000#32) = 1#1) : IsReal x := by
  rw [ofBits_inf] at h
  induction x using EReal.rec with
  | bot => simp [Ideal.cmp] at h
  | top => simp [Ideal.cmp] at h
  | coe r => exact ⟨r, rfl⟩

/-- An array's test "|a| < +inf", true at an entry, makes that entry real. -/
theorem entry_real {s : Shape} (a : FVec Ideal s .f32) (hb : (⟨0, ![]⟩ : Shape).BroadcastsInDim s ![]) (i : s.Idx)
    (h : cmpf .olt (Host.absf (F := Ideal) a) (broadcastInDim s ![] hb (constant (F := Ideal) ⟨0, ![]⟩ .f32 0x7F800000#32)) i = 1#1) :
    IsReal (a i) := by
  refine real_of_abs_lt_top (a i) ?_
  have hc : broadcastInDim s ![] hb (constant (F := Ideal) ⟨0, ![]⟩ .f32 0x7F800000#32) i = Ideal.ofBits .f32 0x7F800000#32 :=
    broadcastInDim_apply ![] hb _ i ix0 fun ax => ax.elim0
  rw [← hc]
  exact h

/-! ## The host's activation functions on one number -/

/-- The scaled exponential linear unit as the host computes it on one number: the scale times (u where u > 0, else
    alpha (e^{u'} - 1) with u' = 0 where u > 0, else u). -/
def seluS (u : EReal) : EReal :=
  Ideal.ofBits .f32 0x3F867D5F#32 * Scalar.select (Ideal.cmp .ogt u (Ideal.ofBits .f32 0x00000000#32)) u
    (Ideal.ofBits .f32 0x3FD62D7D#32 * (Ideal.exp (Scalar.select (Ideal.cmp .ogt u (Ideal.ofBits .f32 0x00000000#32))
      (Ideal.ofBits .f32 0x00000000#32) u) - 1))

theorem seluS_real {u : EReal} (hu : IsReal u) : IsReal (seluS u) := by
  unfold seluS
  have h0 : IsReal (Ideal.ofBits .f32 0x00000000#32) := by rw [Ideal.ofBits_zero_f32]; exact IsReal.zero
  exact (ieee_real _ (by decide)).mul (select_real hu ((ieee_real _ (by decide)).mul (((select_real h0 hu).exp).sub IsReal.one)))

/-- Softplus as the host computes it on one number. -/
def softplusS (z : EReal) : EReal :=
  Scalar.select (Ideal.cmp .une (z - Ideal.ofBits .f32 0x00000000#32) (z - Ideal.ofBits .f32 0x00000000#32))
    (z + Ideal.ofBits .f32 0x00000000#32)
    (max z (Ideal.ofBits .f32 0x00000000#32)
      + Ideal.log1p (Ideal.exp (-(max (z - Ideal.ofBits .f32 0x00000000#32) (-(z - Ideal.ofBits .f32 0x00000000#32))))))

/-- The softplus of a real number is a positive real number: max(r, 0) ≥ 0 and log(1 + e^{-|r|}) > 0. -/
theorem softplusS_pos {z : EReal} (hz : IsReal z) : ∃ r : ℝ, 0 < r ∧ softplusS z = (r : EReal) := by
  obtain ⟨r, rfl⟩ := hz
  unfold softplusS
  have hne : Ideal.cmp .une ((r : EReal) - Ideal.ofBits .f32 0x00000000#32) ((r : EReal) - Ideal.ofBits .f32 0x00000000#32) = 0#1 := by
    simp [Ideal.cmp]
  rw [hne, Ideal.ofBits_zero_f32]
  have hsel : ∀ a b : EReal, Scalar.select 0#1 a b = b := fun a b => if_neg (by decide)
  rw [hsel, sub_zero]
  have hE : 0 < Real.exp (-(max r (-r))) := Real.exp_pos _
  refine ⟨max r 0 + Real.log (1 + Real.exp (-(max r (-r)))), ?_, ?_⟩
  · have : 0 < Real.log (1 + Real.exp (-(max r (-r)))) := Real.log_pos (by linarith)
    have : 0 ≤ max r 0 := le_max_right _ _
    linarith
  · have e1 : max (r : EReal) (-(r : EReal)) = ((max r (-r) : ℝ) : EReal) := by
      rw [← EReal.coe_neg, coe_max]
    have e2 : max (r : EReal) 0 = ((max r 0 : ℝ) : EReal) := by
      rw [← EReal.coe_zero, coe_max]
    rw [e1, e2, ← EReal.coe_neg, Ideal.exp_coe]
    unfold Ideal.log1p
    rw [← EReal.coe_one, ← EReal.coe_add, Ideal.log_coe, if_neg (not_le.mpr (by linarith)), ← EReal.coe_add]

end Cert.LibReal

end
-- ==== Proof.KanLaw.lean ====
/-
  The nineteen masked accumulation steps add up to the cubic of each feature's own interval.

  All quantities are real numbers, so the computation is done in the reals and carried back.  The mask of interval k at a
  feature whose interval word is v is the number 1 when v = k and 0 otherwise.  Step k therefore contributes, at feature i,
  [w i = k] (c k 0 i + t c k 1 i + t^2 c k 2 i + t^3 c k 3 i);  exchanging the sum over the steps with the sum over the
  features, the inner sum over k of an indicator keeps exactly the term k = w i, and that term is the nested cubic
  ((d t + c) t + b) t + a.  The offset of a real sample is real because it is built from the sample, two
  single-precision constants with finite exponent fields, and an integer, by a difference, a sum and a product.
-/
import proofs.«166700_j30588757082465_2_alg».proof.Proof.KanSpec
import proofs.«166700_j30588757082465_2_alg».proof.Proof.LibReal

noncomputable section

open scoped BigOperators

namespace Cert.Kan

open Idealize.ShloMosaic Idealize.ShloMosaic.ValueIdx
open Cert.LibReal

/-- The mask as a real number: 1 when the two words agree, else 0. -/
def maskR (w k : BitVec 32) : ℝ := if w = k then 1 else 0

/-- The mask of the program is the real indicator: the comparison is a one-bit word, widened to 32 bits it is the word
    1 or the word 0, and the conversion to a float reads that word as the integer 1 or 0. -/
theorem maskE_eq (w k : BitVec 32) : maskE w k = ((maskR w k : ℝ) : EReal) := by
  show ((((BitVec.ofBool (w == k)).setWidth 32).toInt : ℝ) : EReal) = ((maskR w k : ℝ) : EReal)
  unfold maskR
  by_cases h : w = k
  · have hb : (w == k) = true := by simp [h]
    have h1 : ((BitVec.ofBool true).setWidth 32 : BitVec 32).toInt = 1 := by decide
    rw [if_pos h, hb, h1, Int.cast_one]
  · have hb : (w == k) = false := by simp [h]
    have h0 : ((BitVec.ofBool false).setWidth 32 : BitVec 32).toInt = 0 := by decide
    rw [if_neg h, hb, h0, Int.cast_zero]

/-- One accumulation step over real data, in the reals. -/
def stepR (k : BitVec 32) (w : Fin 256 → BitVec 32) (p1 p2 p3 c0 c1 c2 c3 : Fin 256 → ℝ) : ℝ :=
  (((∑ i : Fin 256, maskR (w i) k * c0 i) + (∑ i : Fin 256, (maskR (w i) k * p1 i) * c1 i))
    + (∑ i : Fin 256, (maskR (w i) k * p2 i) * c2 i)) + (∑ i : Fin 256, (maskR (w i) k * p3 i) * c3 i)

/-- A step over real data is the real step. -/
theorem stepE_coe (k : BitVec 32) (w : Fin 256 → BitVec 32) (p1 p2 p3 c0 c1 c2 c3 : Fin 256 → ℝ) :
    stepE k w (fun i => (p1 i : EReal)) (fun i => (p2 i : EReal)) (fun i => (p3 i : EReal))
        (fun i => (c0 i : EReal)) (fun i => (c1 i : EReal)) (fun i => (c2 i : EReal)) (fun i => (c3 i : EReal))
      = ((stepR k w p1 p2 p3 c0 c1 c2 c3 : ℝ) : EReal) := by
  unfold stepE stepR
  simp only [maskE_eq, ← EReal.coe_mul, sum_coe, ← EReal.coe_add]

/-- Step number k in the reals, with the coefficient columns of interval k; zero past the last interval. -/
def stepRk (w : Fin 256 → BitVec 32) (p1 p2 p3 : Fin 256 → ℝ) (cr : Fin 19 → Fin 4 → Fin 256 → ℝ) (k : ℕ) : ℝ :=
  if hk : k < 19 then stepR (BitVec.ofNat 32 k) w p1 p2 p3 (cr ⟨k, hk⟩ 0) (cr ⟨k, hk⟩ 1) (cr ⟨k, hk⟩ 2) (cr ⟨k, hk⟩ 3) else 0

/-- The running total after steps 0 … n over real data is the real sum of the steps 0 … n. -/
theorem accE_coe (w : Fin 256 → BitVec 32) (p1 p2 p3 : Fin 256 → ℝ) (cr : Fin 19 → Fin 4 → Fin 256 → ℝ) :
    ∀ (n : ℕ) (h : n < 19),
      accE w (fun i => (p1 i : EReal)) (fun i => (p2 i : EReal)) (fun i => (p3 i : EReal)) (fun k m i => (cr k m i : EReal)) n h
        = ((∑ k ∈ Finset.range (n + 1), stepRk w p1 p2 p3 cr k : ℝ) : EReal)
  | 0, h => by
    simp only [accE]
    rw [stepE_coe, Ideal.ofBits_zero_f32, zero_add, Finset.sum_range_one]
    unfold stepRk
    rw [dif_pos h]
  | n + 1, h => by
    simp only [accE]
    rw [accE_coe w p1 p2 p3 cr n (Nat.lt_of_succ_lt h), stepE_coe, ← EReal.coe_add, Finset.sum_range_succ _ (n + 1)]
    congr 2
    unfold stepRk
    rw [dif_pos h]

/-- A sum over the nineteen intervals against the mask of a word below 19 keeps the term of that word. -/
theorem sum_mask (v : BitVec 32) (hv : v.toNat < 19) (f : Fin 19 → ℝ) :
    ∑ k : Fin 19, maskR v (BitVec.ofNat 32 k.val) * f k = f ⟨v.toNat, hv⟩ := by
  rw [Finset.sum_eq_single (⟨v.toNat, hv⟩ : Fin 19)]
  · unfold maskR
    rw [if_pos (by simp), one_mul]
  · intro k _ hk
    unfold maskR
    rw [if_neg, zero_mul]
    intro e
    apply hk
    apply Fin.ext
    have e2 := congrArg BitVec.toNat e
    rw [BitVec.toNat_ofNat] at e2
    have := k.isLt
    show k.val = v.toNat
    omega
  · intro hn
    exact absurd (Finset.mem_univ _) hn

/-- In the reals: the nineteen steps add up to the sum over the features of each feature's own cubic. -/
theorem total_real (w : Fin 256 → BitVec 32) (hw : ∀ i, (w i).toNat < 19) (tr : Fin 256 → ℝ)
    (cr : Fin 19 → Fin 4 → Fin 256 → ℝ) :
    ∑ k ∈ Finset.range (18 + 1), stepRk w tr (fun i => tr i * tr i) (fun i => (tr i * tr i) * tr i) cr k
      = ∑ i : Fin 256, (((cr ⟨(w i).toNat, hw i⟩ 3 i * tr i + cr ⟨(w i).toNat, hw i⟩ 2 i) * tr i
          + cr ⟨(w i).toNat, hw i⟩ 1 i) * tr i + cr ⟨(w i).toNat, hw i⟩ 0 i) := by
  rw [Finset.sum_range]
  have h1 : ∀ k : Fin 19, stepRk w tr (fun i => tr i * tr i) (fun i => (tr i * tr i) * tr i) cr k.val
      = ∑ i : Fin 256, maskR (w i) (BitVec.ofNat 32 k.val)
          * (((cr k 3 i * tr i + cr k 2 i) * tr i + cr k 1 i) * tr i + cr k 0 i) := by
    intro k
    unfold stepRk stepR
    rw [dif_pos k.isLt]
    simp only [Fin.eta, ← Finset.sum_add_distrib]
    refine Finset.sum_congr rfl fun i _ => ?_
    ring
  rw [Finset.sum_congr rfl fun k _ => h1 k, Finset.sum_comm]
  refine Finset.sum_congr rfl fun i _ => ?_
  exact sum_mask (w i) (hw i) fun k => (((cr k 3 i * tr i + cr k 2 i) * tr i + cr k 1 i) * tr i + cr k 0 i)

/-- The nineteen accumulation steps over real offsets, their squares and cubes, and real coefficients, started from
    zero, give zero plus the sum over the features of the nested cubic with the coefficients of each feature's interval. -/
theorem accE_eq_horner (w : Fin 256 → BitVec 32) (t : Fin 256 → EReal) (c : Fin 19 → Fin 4 → Fin 256 → EReal)
    (hw : ∀ i, (w i).toNat < 19) (ht : ∀ i, IsReal (t i)) (hc : ∀ k m i, IsReal (c k m i)) :
    accE w t (fun i => t i * t i) (fun i => (t i * t i) * t i) c 18 (by decide)
      = Ideal.ofBits .f32 0x00000000#32 + ∑ i : Fin 256,
          hornerE (c ⟨(w i).toNat, hw i⟩ 0 i) (c ⟨(w i).toNat, hw i⟩ 1 i) (c ⟨(w i).toNat, hw i⟩ 2 i) (c ⟨(w i).toNat, hw i⟩ 3 i) (t i) := by
  choose tr htr using ht
  choose cr hcr using hc
  obtain rfl : t = fun i => (tr i : EReal) := funext htr
  obtain rfl : c = fun k m i => (cr k m i : EReal) := funext fun k => funext fun m => funext fun i => hcr k m i
  have e2 : (fun i => (tr i : EReal) * (tr i : EReal)) = fun i => ((tr i * tr i : ℝ) : EReal) :=
    funext fun i => (EReal.coe_mul _ _).symm
  have e3 : (fun i => ((tr i : EReal) * (tr i : EReal)) * (tr i : EReal)) = fun i => (((tr i * tr i) * tr i : ℝ) : EReal) :=
    funext fun i => by rw [← EReal.coe_mul, ← EReal.coe_mul]
  simp only []
  rw [e2, e3, accE_coe, total_real w hw tr cr, Ideal.ofBits_zero_f32, zero_add]
  simp only [hornerE, ← EReal.coe_mul, ← EReal.coe_add, sum_coe]

/-- The offset of a real sample from its interval's left knot is real. -/
theorem offs_real {x : EReal} (hx : IsReal x) : IsReal (offs x) := by
  show IsReal (x - (Ideal.ofBits .f32 0xC0A00000#32 + (((knotW x).toInt : ℝ) : EReal) * Ideal.ofBits .f32 0x3F06BCA2#32))
  exact hx.sub ((ieee_real _ (by decide)).add ((IsReal.coe _).mul (ieee_real _ (by decide))))

end Cert.Kan

end
-- ==== Proof.KanValue.lean ====
/-
  The result array of the blocked layer is the layer.

  Row 512 q + r of the result is written at the last step of batch tile q. There the output block holds the running total
  of the nineteen steps plus the bias; the running total at (r, j) is KanSpec's `accE` over the interval words and offsets of
  the samples in row 512 q + r and the coefficients of output j (induction on the point); and for real samples and
  coefficients nineteen masked steps add up to the sum over the features of each feature's own cubic (KanLaw). The two
  tiles' output blocks cover the result array.
-/
import proofs.«166700_j30588757082465_2_alg».proof.Proof.KanBlocks
import proofs.«166700_j30588757082465_2_alg».proof.Proof.KanStep
import proofs.«166700_j30588757082465_2_alg».proof.Proof.KanLaw
import proofs.«166700_j30588757082465_2_alg».proof.Proof.Gen.KernelIdeal.Value

noncomputable section

open scoped BigOperators
open Idealize.ShloMosaic Idealize.ShloMosaic.TcCoe Idealize.SL.Sem Idealize.ShloMosaic.ValueIdx
open Idealize.ShloMosaic.Pipeline (Dat)
open Cert.LibReal (IsReal)

namespace Cert.KernelIdeal.KanVal

open Cert.KernelIdeal Cert.KernelIdeal.Gen

variable (m : (ℓ : Loc nD τ sig) → Buf (Elt Ideal) ℓ)

/-- Row 512 q + r of the samples (q = 0, 1). -/
def rowIx (q0 : ℕ) (r : Fin 512) : Fin 1024 := ⟨(512 * q0 + r.val) % 1024, Nat.mod_lt _ (by decide)⟩

theorem row_eq (t : Fin cfg0.N) (r : Fin 512) :
    (⟨512 * (t.val / 19) + r.val, tile_lt t r⟩ : Fin 1024) = rowIx (t.val / 19) r :=
  Fin.ext (Nat.mod_eq_of_lt (tile_lt t r)).symm

/-- The samples a point's tile stored: rows 512 (n div 19) … of x. -/
theorem xAt_apply (c : Dev nD) : ∀ (n : ℕ) (h : n < cfg0.N) (r : Fin 512) (q : Fin 256),
    xAt m c n h (ix2 r q) = m ((c : Thread nD τ).loc main_arg0) (ix2 (rowIx (n / 19) r) q)
  | 0, h, r, q => by
    rw [xAt_first m c 0 h rfl, xblk_apply, row_eq]
  | n + 1, h, r, q => by
    by_cases h0 : (n + 1) % 19 = 0
    · rw [xAt_first m c (n + 1) h h0, xblk_apply, row_eq]
    · rw [xAt_later m c n h h0, xAt_apply c n _ r q, show (n + 1) / 19 = n / 19 from by omega]

/-- The interval words and the offsets of the samples in row 512 q + r, and the coefficients of output j. -/
def wRow (c : Dev nD) (q0 : ℕ) (r : Fin 512) : Fin 256 → BitVec 32 :=
  fun q => Cert.Kan.knotW (m ((c : Thread nD τ).loc main_arg0) (ix2 (rowIx q0 r) q))
def tRow (c : Dev nD) (q0 : ℕ) (r : Fin 512) : Fin 256 → EReal :=
  fun q => Cert.Kan.offs (m ((c : Thread nD τ).loc main_arg0) (ix2 (rowIx q0 r) q))
def cCol (c : Dev nD) (j : Fin 256) : Fin 19 → Fin 4 → Fin 256 → EReal :=
  fun k mm q => m ((c : Thread nD τ).loc main_arg1) (ix4 j q k mm)

/-- One step at a point, at the entry (r, j), over the tile's rows and the point's coefficient slab. -/
theorem step_at (c : Dev nD) (n : ℕ) (h : n < cfg0.N) (k : ℕ) (hk : k < 19) (hnk : n % 19 = k) (acc : Vec Ideal S512x256 .f32)
    (r : Fin 512) (j : Fin 256) :
    stepV (grid0.coords ⟨n, h⟩) (iblk m c 1 ⟨n, h⟩) (k0_pay5 (xAt m c n h)) (k0_pay6 (xAt m c n h)) (k0_pay7 (xAt m c n h))
        (k0_pay8 (xAt m c n h)) acc (ix2 r j)
      = acc (ix2 r j) + Cert.Kan.stepE (BitVec.ofNat 32 k) (wRow m c (n / 19) r) (tRow m c (n / 19) r)
          (fun q => tRow m c (n / 19) r q * tRow m c (n / 19) r q)
          (fun q => (tRow m c (n / 19) r q * tRow m c (n / 19) r q) * tRow m c (n / 19) r q)
          (cCol m c j ⟨k, hk⟩ 0) (cCol m c j ⟨k, hk⟩ 1) (cCol m c j ⟨k, hk⟩ 2) (cCol m c j ⟨k, hk⟩ 3) := by
  obtain ⟨-, -, -, -, -, -, -, -, -, -, ek⟩ := idx_facts ⟨n, h⟩
  subst hnk
  rw [stepV_apply, ek]
  simp only [pay5_apply, pay6_apply, pay7_apply, pay8_apply, xAt_apply, cblk_apply]
  rfl

/-- The running total after a point, at the entry (r, j). -/
theorem acc_apply (c : Dev nD) (r : Fin 512) (j : Fin 256) : ∀ (n : ℕ) (h : n < cfg0.N) (k : ℕ) (hk : k < 19), n % 19 = k →
    accV m c n h (ix2 r j) = Cert.Kan.accE (wRow m c (n / 19) r) (tRow m c (n / 19) r)
      (fun q => tRow m c (n / 19) r q * tRow m c (n / 19) r q)
      (fun q => (tRow m c (n / 19) r q * tRow m c (n / 19) r q) * tRow m c (n / 19) r q) (cCol m c j) k hk
  | 0, h, k, hk, hnk => by
    have hk0 : k = 0 := by omega
    subst hk0
    rw [accV_first m c 0 h rfl, step_at m c 0 h 0 hk rfl, zero_apply]
    rfl
  | n + 1, h, k, hk, hnk => by
    by_cases h0 : (n + 1) % 19 = 0
    · have hk0 : k = 0 := by omega
      subst hk0
      rw [accV_first m c (n + 1) h h0, step_at m c (n + 1) h 0 hk h0, zero_apply]
      rfl
    · obtain ⟨k', rfl⟩ : ∃ k', k = k' + 1 := ⟨k - 1, by omega⟩
      have ih := acc_apply c r j n (Nat.lt_of_succ_lt h) k' (by omega) (by omega)
      rw [accV_later m c n h h0, step_at m c (n + 1) h (k' + 1) hk hnk, ih, show (n + 1) / 19 = n / 19 from by omega]
      rfl

variable (hX : ∀ (c : Dev nD) i, IsReal (m ((c : Thread nD τ).loc main_arg0) i))
  (hC : ∀ (c : Dev nD) i, IsReal (m ((c : Thread nD τ).loc main_arg1) i))

include hX hC in
/-- The output block at the last step of a tile, at (r, j): entry (512 q + r, j) of the layer. -/
theorem out_apply (c : Dev nD) (t : Fin cfg0.N) (h1 : t.val % 19 = 18) (r : Fin 512) (j : Fin 256) :
    (outsAt0 m c t.val t.isLt).1 (ix2 r j)
      = Cert.Kan.Gat (m ((c : Thread nD τ).loc main_arg0)) (m ((c : Thread nD τ).loc main_arg1))
          (m ((c : Thread nD τ).loc main_arg2)) (rowIx (t.val / 19) r) j := by
  rw [out_eq m c t h1, pay2_apply, bblk_apply, acc_apply m c r j t.val t.isLt 18 (by decide) h1]
  rw [Cert.Kan.accE_eq_horner (wRow m c (t.val / 19) r) (tRow m c (t.val / 19) r) (cCol m c j)
    (fun q => Cert.Kan.knotW_lt _) (fun q => Cert.Kan.offs_real (hX c _)) (fun k mm q => hC c _)]
  rfl

include hX hC in
/-- What the last step of a tile writes back is the tile's block of the layer. -/
theorem flushed_eq (c : Dev nD) (t : Fin cfg0.N) (hf : (cfg0.win 3).flush t = true) :
    (dats m 0 c).flushed 3 t = ((cfg0.win 3).blk t).view.read (Elt Ideal)
      (Cert.Kan.G (m ((c : Thread nD τ).loc main_arg0)) (m ((c : Thread nD τ).loc main_arg1)) (m ((c : Thread nD τ).loc main_arg2))) := by
  have h1 : t.val % 19 = 18 := (flush0_3 t).mp hf
  obtain ⟨-, -, -, -, -, -, -, -, e0, e1, -⟩ := idx_facts t
  rw [Cert.KernelIdeal.Value.flushed3]
  refine funext fun (y : S512x256.Idx) => ?_
  obtain ⟨r, j, rfl⟩ : ∃ (r : Fin 512) (j : Fin 256), y = ix2 r j := ⟨y 0, y 1, eq_ix2 y⟩
  have hemb : ((cfg0.win 3).blk t).view.emb (ix2 r j) = (ix2 (rowIx (t.val / 19) r) j : S1024x256.Idx) := by
    rw [← row_eq]
    exact funext fun a => Fin.ext (by
      match a with
      | ⟨0, _⟩ => show win0_3.index t (0 : Fin 2) * 512 + 1 * r.val = 512 * (t.val / 19) + r.val; rw [e0]; omega
      | ⟨1, _⟩ => show win0_3.index t (1 : Fin 2) * 256 + 1 * j.val = j.val; rw [e1]; omega)
  rw [View.read_apply, hemb]
  exact out_apply m hX hC c t h1 r j

/-- An index of the result is in a point's output block iff each coordinate is in the block's range. -/
theorem mem_blk3 (t : Fin cfg0.N) (i : S1024x256.Idx) :
    i ∈ ((cfg0.win 3).blk t).view.set ↔ ∀ a : Fin 2, win0_3.index t a * S512x256.size a ≤ (i a).val
      ∧ (i a).val < win0_3.index t a * S512x256.size a + S512x256.size a := by
  show i ∈ ((View.whole main_v3).slice (win0_3.rect t)).set ↔ _
  rw [View.set_slice_whole, Rect.mem_set_unit]
  exact Iff.rfl

/-- Every index of the result is in the output block of its tile's last step. -/
theorem cover3 (i : S1024x256.Idx) : ∃ t : Fin cfg0.N, (cfg0.win 3).flush t = true ∧ i ∈ ((cfg0.win 3).blk t).view.set := by
  have hN : cfg0.N = 38 := N_0
  have hi0 : (i 0).val < 1024 := (i 0).isLt
  have hi1 : (i 1).val < 256 := (i 1).isLt
  obtain ⟨t, ht⟩ : ∃ t : Fin cfg0.N, t.val = 19 * ((i 0).val / 512) + 18 := ⟨⟨19 * ((i 0).val / 512) + 18, by omega⟩, rfl⟩
  refine ⟨t, (flush0_3 t).mpr (by rw [ht]; omega), ?_⟩
  rw [mem_blk3]
  obtain ⟨-, -, -, -, -, -, -, -, e0, e1, -⟩ := idx_facts t
  have hq : t.val / 19 = (i 0).val / 512 := by rw [ht]; omega
  intro a
  match a with
  | ⟨0, _⟩ =>
    show win0_3.index t (0 : Fin 2) * 512 ≤ (i 0).val ∧ (i 0).val < win0_3.index t (0 : Fin 2) * 512 + 512
    rw [e0, hq]; omega
  | ⟨1, _⟩ =>
    show win0_3.index t (1 : Fin 2) * 256 ≤ (i 1).val ∧ (i 1).val < win0_3.index t (1 : Fin 2) * 256 + 256
    rw [e1]; omega

include hX hC in
/-- So the result array ends holding the layer of the argument arrays. -/
theorem final3 (c : Dev nD) : (dats m 0 c).arrAt 3 cfg0.N
    = Cert.Kan.G (m ((c : Thread nD τ).loc main_arg0)) (m ((c : Thread nD τ).loc main_arg1)) (m ((c : Thread nD τ).loc main_arg2)) :=
  (dats m 0 c).arrAt_eq_of_cover 3 _ (fun t hf => flushed_eq m hX hC c t hf) cover3

include hX hC in
/-- The run of the blocked program: the result at the layer of the arguments, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v3)
        = Cert.Kan.G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m hX hC c), (h c).2⟩)
    (Cert.KernelIdeal.Value.run_blocks m ρ)

end Cert.KernelIdeal.KanVal

end
-- ==== Proof.KanRef.lean ====
/-
  The reference program, read one output entry at a time at the exact extended-real instance, is the layer G.
-/
import proofs.«166700_j30588757082465_2_alg».proof.Proof.Gen.ReferenceIdeal.Read
import proofs.«166700_j30588757082465_2_alg».proof.Proof.KanSpec
import Idealize.ShloMosaic.Lib.ValueIdx
import Idealize.ShloMosaic.Lib.Pipeline.Value
import Idealize.ShloMosaic.PureOps.Ideal.Laws

noncomputable section

open scoped BigOperators

namespace Cert.Kan

open Idealize.ShloMosaic Idealize.ShloMosaic.ValueIdx Idealize.ShloMosaic.StableHlo
open Cert.ReferenceIdeal Cert.ReferenceIdeal.Gen Cert.ReferenceIdeal.Read

namespace Ref

/-! ## Words: a non-negative word read as a signed integer -/

/-- A word below 2^31 is not negative: the signed comparison with zero answers 0. -/
theorem slt_zero_of_lt (v : BitVec 32) (h : v.toNat < 2147483648) : IntOp.cmpi .slt v 0#32 = 0#1 := by
  have hv := BitVec.toInt_eq_toNat_cond v
  have h0 : (0#32 : BitVec 32).toInt = 0 := by decide
  have hs : v.slt 0#32 = false := by
    simp only [BitVec.slt, h0, decide_eq_false_iff_not, not_lt]
    split_ifs at hv <;> omega
  show BitVec.ofBool (v.slt 0#32) = 0#1
  rw [hs]; rfl

/-- A word below 2^31 read as a signed integer is its value. -/
theorem toInt_toNat_of_lt (v : BitVec 32) (h : v.toNat < 2147483648) : v.toInt.toNat = v.toNat := by
  have hv := BitVec.toInt_eq_toNat_cond v
  split_ifs at hv <;> omega

/-! ## The interval word and the offset -/

/-- The interval word the program computes at feature (b, i) is the specification's. -/
theorem knot (x0 : (⟨Cert.ReferenceIdeal.S1024x256, .f32⟩ : BufTy).Contents (Elt Ideal)) (b : Fin 1024) (i : Fin 256) :
    val_main_v6 (F := Ideal) x0 (ix2 b i) = knotW (x0 (ix2 b i)) := by
  rw [val_main_v6_apply, val_main_call0_v4_apply, val_main_call0_v3_apply, val_main_c_1_apply,
    val_main_call0_v2_apply, val_main_call0_v1_apply, val_main_call0_v0_apply, val_main_c_apply,
    val_main_v5_apply, val_main_v4_apply, val_main_v3_apply, val_main_v1_apply, val_main_v0_apply,
    val_main_cst_apply, val_main_v2_apply, val_main_cst_0_apply]
  rfl

/-- The offset the program computes at feature (b, i) is the specification's. -/
theorem tee (x0 : (⟨Cert.ReferenceIdeal.S1024x256, .f32⟩ : BufTy).Contents (Elt Ideal)) (b : Fin 1024) (i : Fin 256) :
    val_main_v12 (F := Ideal) x0 (ix2 b i) = offs (x0 (ix2 b i)) := by
  rw [val_main_v12_apply, val_main_v11_apply, val_main_v10_apply, val_main_cst_3_apply, val_main_v9_apply,
    val_main_v8_apply, val_main_cst_2_apply, val_main_v7_apply, knot x0 b i]
  rfl

/-! ## The two start words of the gather at feature (b, i) -/

/-- The feature number as a word: "add 256 when negative" leaves it alone. -/
theorem feat (b : Fin 1024) (i : Fin 256) : val_main_v20 (F := Ideal) (ix2 b i) = BitVec.ofNat 32 i.val := by
  have h15 : val_main_v15 (F := Ideal) (ix2 b i) = BitVec.ofNat 32 i.val := by
    rw [val_main_v15_apply, val_main_v14_apply, val_main_v13_apply]
  have hlt : (BitVec.ofNat 32 i.val).toNat < 2147483648 := by
    rw [BitVec.toNat_ofNat]; have := i.isLt; omega
  rw [val_main_v20_apply, val_main_v17_apply, val_main_v16_apply, val_main_c_4_apply, h15,
    slt_zero_of_lt _ hlt, select_zero]

/-- The interval word: "add 19 when negative" leaves it alone, since it lies in [0, 18]. -/
theorem knotword (x0 : (⟨Cert.ReferenceIdeal.S1024x256, .f32⟩ : BufTy).Contents (Elt Ideal)) (b : Fin 1024) (i : Fin 256) :
    val_main_v25 (F := Ideal) x0 (ix2 b i) = knotW (x0 (ix2 b i)) := by
  have hlt : (knotW (x0 (ix2 b i))).toNat < 2147483648 := by have := knotW_lt (x0 (ix2 b i)); omega
  rw [val_main_v25_apply, val_main_v22_apply, val_main_v21_apply, val_main_c_6_apply, knot x0 b i,
    slt_zero_of_lt _ hlt, select_zero]

/-- A join of two [1024, 256, 1] arrays along the last axis, read at last coordinate 0: the first array. -/
theorem cat0 {α : Type} (y0 y1 : Cert.ReferenceIdeal.S1024x256x1.Idx → α) (b : Fin 1024) (i : Fin 256) :
    concatenate Cert.ReferenceIdeal.S1024x256x2 2 [⟨Cert.ReferenceIdeal.S1024x256x1, y0⟩, ⟨Cert.ReferenceIdeal.S1024x256x1, y1⟩] concatenates_S1024x256x1_S1024x256x1_S1024x256x2_d2 (ix3 b i (0 : Fin 2))
      = y0 (ix3 b i (0 : Fin 1)) :=
  concatenate_pair_apply_left _ _ _ concatenates_S1024x256x1_S1024x256x1_S1024x256x2_d2 (ix3 b i (0 : Fin 2)) rfl (ix3 b i (0 : Fin 1))
    (fun a => by match a with | ⟨0, _⟩ => rfl | ⟨1, _⟩ => rfl | ⟨2, _⟩ => rfl)

/-- … and at last coordinate 1: the second array. -/
theorem cat1 {α : Type} (y0 y1 : Cert.ReferenceIdeal.S1024x256x1.Idx → α) (b : Fin 1024) (i : Fin 256) :
    concatenate Cert.ReferenceIdeal.S1024x256x2 2 [⟨Cert.ReferenceIdeal.S1024x256x1, y0⟩, ⟨Cert.ReferenceIdeal.S1024x256x1, y1⟩] concatenates_S1024x256x1_S1024x256x1_S1024x256x2_d2 (ix3 b i (1 : Fin 2))
      = y1 (ix3 b i (0 : Fin 1)) :=
  concatenate_pair_apply_right _ _ _ concatenates_S1024x256x1_S1024x256x1_S1024x256x2_d2 (ix3 b i (1 : Fin 2)) rfl rfl (ix3 b i (0 : Fin 1))
    (fun a ha => by match a with | ⟨0, _⟩ => rfl | ⟨1, _⟩ => rfl | ⟨2, _⟩ => exact absurd rfl ha) rfl

/-- Component 0 of the start index at (b, i) is the feature number. -/
theorem start0 (x0 : (⟨Cert.ReferenceIdeal.S1024x256, .f32⟩ : BufTy).Contents (Elt Ideal)) (b : Fin 1024) (i : Fin 256) :
    val_main_v28 (F := Ideal) x0 (ix3 b i (0 : Fin 2)) = BitVec.ofNat 32 i.val := by
  have hidx : idx_main_v26 (ix3 b i (0 : Fin 1)) = ix2 b i := by
    funext a; match a with | ⟨0, _⟩ => rfl | ⟨1, _⟩ => rfl
  unfold val_main_v28
  refine (cat0 _ _ b i).trans ?_
  rw [val_main_v26_apply, hidx, feat]

/-- Component 1 of the start index at (b, i) is the interval word. -/
theorem start1 (x0 : (⟨Cert.ReferenceIdeal.S1024x256, .f32⟩ : BufTy).Contents (Elt Ideal)) (b : Fin 1024) (i : Fin 256) :
    val_main_v28 (F := Ideal) x0 (ix3 b i (1 : Fin 2)) = knotW (x0 (ix2 b i)) := by
  have hidx : idx_main_v27 (ix3 b i (0 : Fin 1)) = ix2 b i := by
    funext a; match a with | ⟨0, _⟩ => rfl | ⟨1, _⟩ => rfl
  unfold val_main_v28
  refine (cat1 _ _ b i).trans ?_
  rw [val_main_v27_apply, hidx, knotword]

/-! ## The gather read at an index

Its dimension numbers: result axes 0 and 3 are the operand's axes 0 and 3 (offset axes), result axes 1 and 2 run over
the start indices' axes 0 and 1, and the two components of a start index name the operand's collapsed axes 1 and 2.
So result entry (j, b, i, m) is the operand at (j, s0, s1, m) with s0 and s1 the two components of the start index at
(b, i), each read signed and clamped into its axis. -/

/-- The gather's dimension numbers under a short name. -/
abbrev gd : GatherDims Cert.ReferenceIdeal.S256x256x19x4 Cert.ReferenceIdeal.S1024x256x2 Cert.ReferenceIdeal.S256x1024x256x4 :=
  gather_S256x256x19x4_S1024x256x2_S256x1024x256x4_03_12_n_n_12_2_256114

/-- Result index (j, b, i, m) reads component c of its start index at (b, i, c). -/
theorem siIdx_eq (j : Fin 256) (b : Fin 1024) (i : Fin 256) (m : Fin 4) (c : Fin gd.startIndexMap.length) :
    gd.siIdx (ix4 j b i m) c = ix3 b i (⟨c.val, c.isLt⟩ : Fin 2) := by
  funext a; refine Fin.ext ?_
  match a with
  | ⟨0, _⟩ => rfl
  | ⟨1, _⟩ => rfl
  | ⟨2, _⟩ => rfl

/-- The gather at (j, b, i, m): the operand at (j, s0, s1, m), the start index's components clamped. -/
theorem gather_read {α : Type} (x : Cert.ReferenceIdeal.S256x256x19x4.Idx → α) (idx : IVec Cert.ReferenceIdeal.S1024x256x2 32)
    (j : Fin 256) (b : Fin 1024) (i : Fin 256) (m : Fin 4) :
    Host.gather gd x idx (ix4 j b i m)
      = x (ix4 j (⟨min (idx (ix3 b i (0 : Fin 2))).toInt.toNat 255, by omega⟩ : Fin 256)
            (⟨min (idx (ix3 b i (1 : Fin 2))).toInt.toNat 18, by omega⟩ : Fin 19) m) := by
  unfold Host.gather
  refine congrArg x ?_
  funext a
  refine Fin.ext ?_
  match a with
  | ⟨0, _⟩ =>
    show gd.start (ix4 j b i m) idx ⟨0, by decide⟩ + gd.batchCoord (ix4 j b i m) ⟨0, by decide⟩ + gd.offCoord (ix4 j b i m) ⟨0, by decide⟩ = j.val
    rw [GatherDims.batchCoord_eq_zero _ _ _ List.not_mem_nil]
    unfold GatherDims.start GatherDims.offCoord
    rw [dif_neg (by decide), dif_pos (by decide)]
    exact (Nat.zero_add _).trans rfl
  | ⟨1, _⟩ =>
    show gd.start (ix4 j b i m) idx ⟨1, by decide⟩ + gd.batchCoord (ix4 j b i m) ⟨1, by decide⟩ + gd.offCoord (ix4 j b i m) ⟨1, by decide⟩
      = min (idx (ix3 b i (0 : Fin 2))).toInt.toNat 255
    rw [GatherDims.batchCoord_eq_zero _ _ _ List.not_mem_nil, GatherDims.offCoord_eq_zero _ _ _ (by decide)]
    unfold GatherDims.start
    rw [dif_pos (by decide), siIdx_eq]
    rfl
  | ⟨2, _⟩ =>
    show gd.start (ix4 j b i m) idx ⟨2, by decide⟩ + gd.batchCoord (ix4 j b i m) ⟨2, by decide⟩ + gd.offCoord (ix4 j b i m) ⟨2, by decide⟩
      = min (idx (ix3 b i (1 : Fin 2))).toInt.toNat 18
    rw [GatherDims.batchCoord_eq_zero _ _ _ List.not_mem_nil, GatherDims.offCoord_eq_zero _ _ _ (by decide)]
    unfold GatherDims.start
    rw [dif_pos (by decide), siIdx_eq]
    rfl
  | ⟨3, _⟩ =>
    show gd.start (ix4 j b i m) idx ⟨3, by decide⟩ + gd.batchCoord (ix4 j b i m) ⟨3, by decide⟩ + gd.offCoord (ix4 j b i m) ⟨3, by decide⟩ = m.val
    rw [GatherDims.batchCoord_eq_zero _ _ _ List.not_mem_nil]
    unfold GatherDims.start GatherDims.offCoord
    rw [dif_neg (by decide), dif_pos (by decide)]
    exact (Nat.zero_add _).trans rfl

/-- The gathered coefficient: entry (j, b, i, m) is the coefficient stored for (output j, input i, interval of x(b, i)),
    power m. Both start words are already inside their axes, so the clamps leave them alone. -/
theorem gathered (x0 : (⟨Cert.ReferenceIdeal.S1024x256, .f32⟩ : BufTy).Contents (Elt Ideal)) (x1 : (⟨Cert.ReferenceIdeal.S256x256x19x4, .f32⟩ : BufTy).Contents (Elt Ideal)) (j : Fin 256) (b : Fin 1024) (i : Fin 256) (m : Fin 4) :
    val_main_v29 (F := Ideal) x0 x1 (ix4 j b i m) = x1 (ix4 j i (kidx (x0 (ix2 b i))) m) := by
  unfold val_main_v29
  refine (gather_read x1 (val_main_v28 (F := Ideal) x0) j b i m).trans ?_
  refine congrArg x1 ?_
  have hk := knotW_lt (x0 (ix2 b i))
  have hi := i.isLt
  have hlt0 : (BitVec.ofNat 32 i.val).toNat < 2147483648 := by rw [BitVec.toNat_ofNat]; omega
  have hlt1 : (knotW (x0 (ix2 b i))).toNat < 2147483648 := by omega
  have e0 : min (val_main_v28 (F := Ideal) x0 (ix3 b i (0 : Fin 2))).toInt.toNat 255 = i.val := by
    rw [start0, toInt_toNat_of_lt _ hlt0, BitVec.toNat_ofNat]; omega
  have e1 : min (val_main_v28 (F := Ideal) x0 (ix3 b i (1 : Fin 2))).toInt.toNat 18 = (knotW (x0 (ix2 b i))).toNat := by
    rw [start1, toInt_toNat_of_lt _ hlt1]; omega
  funext a
  refine Fin.ext ?_
  match a with
  | ⟨0, _⟩ => rfl
  | ⟨1, _⟩ => exact e0
  | ⟨2, _⟩ => exact e1
  | ⟨3, _⟩ => rfl

/-! ## The four coefficient arrays and the broadcast offsets at an index -/

/-- Slice 0 of the last axis with its unit axis dropped: entry (j, b, i) is the gathered entry (j, b, i, 0). -/
theorem coef0 (x0 : (⟨Cert.ReferenceIdeal.S1024x256, .f32⟩ : BufTy).Contents (Elt Ideal)) (x1 : (⟨Cert.ReferenceIdeal.S256x256x19x4, .f32⟩ : BufTy).Contents (Elt Ideal)) (j : Fin 256) (b : Fin 1024) (i : Fin 256) :
    val_main_v31 (F := Ideal) x0 x1 (ix3 j b i) = val_main_v29 (F := Ideal) x0 x1 (ix4 j b i (0 : Fin 4)) := by
  have hj := j.isLt
  have hb := b.isLt
  have hi := i.isLt
  have h1 : idx_main_v31 (ix3 j b i) = ix4 j b i (0 : Fin 1) := by
    funext a; refine Fin.ext ?_
    match a with
    | ⟨0, _⟩ => show ((j.val * 1024 + b.val) * 256 + i.val) / 262144 = j.val; omega
    | ⟨1, _⟩ => show ((j.val * 1024 + b.val) * 256 + i.val) / 256 % 1024 = b.val; omega
    | ⟨2, _⟩ => show ((j.val * 1024 + b.val) * 256 + i.val) / 1 % 256 = i.val; omega
    | ⟨3, _⟩ => rfl
  have h2 : idx_main_v30 (ix4 j b i (0 : Fin 1)) = ix4 j b i (0 : Fin 4) := by
    funext a; refine Fin.ext ?_
    match a with
    | ⟨0, _⟩ => rfl
    | ⟨1, _⟩ => rfl
    | ⟨2, _⟩ => rfl
    | ⟨3, _⟩ => rfl
  rw [val_main_v31_apply, h1, val_main_v30_apply, h2]

/-- Slice 1 of the last axis with its unit axis dropped: entry (j, b, i) is the gathered entry (j, b, i, 1). -/
theorem coef1 (x0 : (⟨Cert.ReferenceIdeal.S1024x256, .f32⟩ : BufTy).Contents (Elt Ideal)) (x1 : (⟨Cert.ReferenceIdeal.S256x256x19x4, .f32⟩ : BufTy).Contents (Elt Ideal)) (j : Fin 256) (b : Fin 1024) (i : Fin 256) :
    val_main_v33 (F := Ideal) x0 x1 (ix3 j b i) = val_main_v29 (F := Ideal) x0 x1 (ix4 j b i (1 : Fin 4)) := by
  have hj := j.isLt
  have hb := b.isLt
  have hi := i.isLt
  have h1 : idx_main_v33 (ix3 j b i) = ix4 j b i (0 : Fin 1) := by
    funext a; refine Fin.ext ?_
    match a with
    | ⟨0, _⟩ => show ((j.val * 1024 + b.val) * 256 + i.val) / 262144 = j.val; omega
    | ⟨1, _⟩ => show ((j.val * 1024 + b.val) * 256 + i.val) / 256 % 1024 = b.val; omega
    | ⟨2, _⟩ => show ((j.val * 1024 + b.val) * 256 + i.val) / 1 % 256 = i.val; omega
    | ⟨3, _⟩ => rfl
  have h2 : idx_main_v32 (ix4 j b i (0 : Fin 1)) = ix4 j b i (1 : Fin 4) := by
    funext a; refine Fin.ext ?_
    match a with
    | ⟨0, _⟩ => rfl
    | ⟨1, _⟩ => rfl
    | ⟨2, _⟩ => rfl
    | ⟨3, _⟩ => rfl
  rw [val_main_v33_apply, h1, val_main_v32_apply, h2]

/-- Slice 2 of the last axis with its unit axis dropped: entry (j, b, i) is the gathered entry (j, b, i, 2). -/
theorem coef2 (x0 : (⟨Cert.ReferenceIdeal.S1024x256, .f32⟩ : BufTy).Contents (Elt Ideal)) (x1 : (⟨Cert.ReferenceIdeal.S256x256x19x4, .f32⟩ : BufTy).Contents (Elt Ideal)) (j : Fin 256) (b : Fin 1024) (i : Fin 256) :
    val_main_v35 (F := Ideal) x0 x1 (ix3 j b i) = val_main_v29 (F := Ideal) x0 x1 (ix4 j b i (2 : Fin 4)) := by
  have hj := j.isLt
  have hb := b.isLt
  have hi := i.isLt
  have h1 : idx_main_v35 (ix3 j b i) = ix4 j b i (0 : Fin 1) := by
    funext a; refine Fin.ext ?_
    match a with
    | ⟨0, _⟩ => show ((j.val * 1024 + b.val) * 256 + i.val) / 262144 = j.val; omega
    | ⟨1, _⟩ => show ((j.val * 1024 + b.val) * 256 + i.val) / 256 % 1024 = b.val; omega
    | ⟨2, _⟩ => show ((j.val * 1024 + b.val) * 256 + i.val) / 1 % 256 = i.val; omega
    | ⟨3, _⟩ => rfl
  have h2 : idx_main_v34 (ix4 j b i (0 : Fin 1)) = ix4 j b i (2 : Fin 4) := by
    funext a; refine Fin.ext ?_
    match a with
    | ⟨0, _⟩ => rfl
    | ⟨1, _⟩ => rfl
    | ⟨2, _⟩ => rfl
    | ⟨3, _⟩ => rfl
  rw [val_main_v35_apply, h1, val_main_v34_apply, h2]

/-- Slice 3 of the last axis with its unit axis dropped: entry (j, b, i) is the gathered entry (j, b, i, 3). -/
theorem coef3 (x0 : (⟨Cert.ReferenceIdeal.S1024x256, .f32⟩ : BufTy).Contents (Elt Ideal)) (x1 : (⟨Cert.ReferenceIdeal.S256x256x19x4, .f32⟩ : BufTy).Contents (Elt Ideal)) (j : Fin 256) (b : Fin 1024) (i : Fin 256) :
    val_main_v37 (F := Ideal) x0 x1 (ix3 j b i) = val_main_v29 (F := Ideal) x0 x1 (ix4 j b i (3 : Fin 4)) := by
  have hj := j.isLt
  have hb := b.isLt
  have hi := i.isLt
  have h1 : idx_main_v37 (ix3 j b i) = ix4 j b i (0 : Fin 1) := by
    funext a; refine Fin.ext ?_
    match a with
    | ⟨0, _⟩ => show ((j.val * 1024 + b.val) * 256 + i.val) / 262144 = j.val; omega
    | ⟨1, _⟩ => show ((j.val * 1024 + b.val) * 256 + i.val) / 256 % 1024 = b.val; omega
    | ⟨2, _⟩ => show ((j.val * 1024 + b.val) * 256 + i.val) / 1 % 256 = i.val; omega
    | ⟨3, _⟩ => rfl
  have h2 : idx_main_v36 (ix4 j b i (0 : Fin 1)) = ix4 j b i (3 : Fin 4) := by
    funext a; refine Fin.ext ?_
    match a with
    | ⟨0, _⟩ => rfl
    | ⟨1, _⟩ => rfl
    | ⟨2, _⟩ => rfl
    | ⟨3, _⟩ => rfl
  rw [val_main_v37_apply, h1, val_main_v36_apply, h2]

/-- The offsets broadcast along the output axis: entry (j, b, i) is the offset at (b, i). -/
theorem tee39 (x0 : (⟨Cert.ReferenceIdeal.S1024x256, .f32⟩ : BufTy).Contents (Elt Ideal)) (j : Fin 256) (b : Fin 1024) (i : Fin 256) :
    val_main_v39 (F := Ideal) x0 (ix3 j b i) = offs (x0 (ix2 b i)) := by
  have h : idx_main_v38 (idx_main_v39 (ix3 j b i)) = ix2 b i := by
    funext a; match a with | ⟨0, _⟩ => rfl | ⟨1, _⟩ => rfl
  rw [val_main_v39_apply, val_main_v38_apply, h, tee]

/-- The offsets broadcast along the output axis: entry (j, b, i) is the offset at (b, i). -/
theorem tee43 (x0 : (⟨Cert.ReferenceIdeal.S1024x256, .f32⟩ : BufTy).Contents (Elt Ideal)) (j : Fin 256) (b : Fin 1024) (i : Fin 256) :
    val_main_v43 (F := Ideal) x0 (ix3 j b i) = offs (x0 (ix2 b i)) := by
  have h : idx_main_v42 (idx_main_v43 (ix3 j b i)) = ix2 b i := by
    funext a; match a with | ⟨0, _⟩ => rfl | ⟨1, _⟩ => rfl
  rw [val_main_v43_apply, val_main_v42_apply, h, tee]

/-- The offsets broadcast along the output axis: entry (j, b, i) is the offset at (b, i). -/
theorem tee47 (x0 : (⟨Cert.ReferenceIdeal.S1024x256, .f32⟩ : BufTy).Contents (Elt Ideal)) (j : Fin 256) (b : Fin 1024) (i : Fin 256) :
    val_main_v47 (F := Ideal) x0 (ix3 j b i) = offs (x0 (ix2 b i)) := by
  have h : idx_main_v46 (idx_main_v47 (ix3 j b i)) = ix2 b i := by
    funext a; match a with | ⟨0, _⟩ => rfl | ⟨1, _⟩ => rfl
  rw [val_main_v47_apply, val_main_v46_apply, h, tee]

/-! ## The summand and the entry -/

/-- The summand at (j, b, i) is the cubic of the specification: the coefficients stored for (output j, input i,
    interval of x(b, i)) in the offset of x(b, i), in nested form. -/
theorem cubic (x0 : (⟨Cert.ReferenceIdeal.S1024x256, .f32⟩ : BufTy).Contents (Elt Ideal)) (x1 : (⟨Cert.ReferenceIdeal.S256x256x19x4, .f32⟩ : BufTy).Contents (Elt Ideal)) (j : Fin 256) (b : Fin 1024) (i : Fin 256) :
    val_main_v49 (F := Ideal) x0 x1 (ix3 j b i)
      = hornerE (x1 (ix4 j i (kidx (x0 (ix2 b i))) (0 : Fin 4))) (x1 (ix4 j i (kidx (x0 (ix2 b i))) (1 : Fin 4)))
          (x1 (ix4 j i (kidx (x0 (ix2 b i))) (2 : Fin 4))) (x1 (ix4 j i (kidx (x0 (ix2 b i))) (3 : Fin 4))) (offs (x0 (ix2 b i))) := by
  rw [val_main_v49_apply, val_main_v48_apply, val_main_v45_apply, val_main_v44_apply, val_main_v41_apply, val_main_v40_apply,
    coef0, coef1, coef2, coef3, tee39, tee43, tee47, gathered, gathered, gathered, gathered]
  rfl

end Ref

open Ref

/-- The reference program's result is the layer. -/
theorem ref_eq_G (x0 : (⟨Cert.ReferenceIdeal.S1024x256, .f32⟩ : BufTy).Contents (Elt Ideal))
    (x1 : (⟨Cert.ReferenceIdeal.S256x256x19x4, .f32⟩ : BufTy).Contents (Elt Ideal))
    (x2 : (⟨Cert.ReferenceIdeal.S256, .f32⟩ : BufTy).Contents (Elt Ideal)) :
    Cert.ReferenceIdeal.Read.val_main_v54 (F := Ideal) x0 x1 x2 = G x0 x1 x2 := by
  funext p
  obtain ⟨b, j, rfl⟩ : ∃ (b : Fin 1024) (j : Fin 256), p = ix2 b j := ⟨p 0, p 1, eq_ix2 p⟩
  have h51 : idx_main_v51 (ix2 b j) = ix2 j b := by
    funext a; match a with | ⟨0, _⟩ => rfl | ⟨1, _⟩ => rfl
  have h53 : idx_main_v52 (idx_main_v53 (ix2 b j)) = ix1 j := by
    funext a; match a with | ⟨0, _⟩ => rfl
  have h50 : ∀ k : Fin 256, idx_main_v50 (ix2 j b) k = ix3 j b k := fun k => by
    funext a; match a with | ⟨0, _⟩ => rfl | ⟨1, _⟩ => rfl | ⟨2, _⟩ => rfl
  rw [val_main_v54_apply, val_main_v51_apply, h51, val_main_v50_apply, val_main_cst_8_apply, val_main_v53_apply,
    val_main_v52_apply, h53]
  show (Ideal.ofBits .f32 0x00000000#32 + ∑ k : Fin 256, val_main_v49 (F := Ideal) x0 x1 (idx_main_v50 (ix2 j b) k)) + x2 (ix1 j)
    = Gat x0 x1 x2 b j
  unfold Gat
  refine congrArg (· + x2 (ix1 j)) (congrArg (Ideal.ofBits .f32 0x00000000#32 + ·) (Finset.sum_congr rfl fun k _ => ?_))
  rw [h50 k, cubic]

end Cert.Kan

end
-- ==== Proof.KanFinite.lean ====
/-
  The precondition read back: when the test "every |entry| of the three arguments is below plus infinity" comes out true,
  every entry of the sample array and of the coefficient array is a real number.

  The test is the conjunction of three "all" reductions, one per argument; each is a reduction by "and" of the one-bit
  array  |a| < +inf  into a result with a single index, so it is 1 only when every element is 1, and an extended real
  whose absolute value is below plus infinity is a real number.
-/
import proofs.«166700_j30588757082465_2_alg».proof.Pre_finite_inputs
import proofs.«166700_j30588757082465_2_alg».proof.Proof.LibReal
import Idealize.ShloMosaic.Lib.ReduceAll

noncomputable section

namespace Cert.Kan

open Idealize.ShloMosaic Idealize.ShloMosaic.ValueIdx

/-- A shape of rank zero has exactly one index. -/
instance subsingleton_scalar_idx : Subsingleton Cert.Pre_finite_inputs.S_.Idx := ⟨fun a b => funext fun d => d.elim0⟩

open Cert.LibReal in
/-- Under the finiteness precondition the samples and the coefficients are real numbers. -/
theorem real_of_pre [Cert.Pre_finite_inputs.Facts]
    (x : FVec Ideal Cert.Pre_finite_inputs.S1024x256 .f32) (cf : FVec Ideal Cert.Pre_finite_inputs.S256x256x19x4 .f32)
    (bias : FVec Ideal Cert.Pre_finite_inputs.S256 .f32)
    (h : Cert.Pre_finite_inputs.fn (F := Ideal) x cf bias = fun _ => 1#1) :
    (∀ i, IsReal (x i)) ∧ (∀ i, IsReal (cf i)) := by
  have e := congrFun h ValueIdx.ix0
  unfold Cert.Pre_finite_inputs.fn at e
  dsimp only [andi] at e
  rw [IntOp.andi_eq_one, IntOp.andi_eq_one] at e
  obtain ⟨⟨hx, hc⟩, -⟩ := e
  exact ⟨fun i => entry_real x _ i (Host.reduce_andi_all _ _ _ _ _ hx i),
    fun i => entry_real cf _ i (Host.reduce_andi_all _ _ _ _ _ hc i)⟩

end Cert.Kan

end
-- ==== Proof.lean ====
/-
  The certificate of a spline layer computed block by block against its direct definition.

  Both programs assign to every sample x its knot interval  k = clip(floor((x + 5) / h), 0, 18)  and its offset
  t = x - (-5 + k h)  from the interval's left knot, by the same operations on the same constants. The reference gathers,
  for output j and input i, the four cubic coefficients of the sample's interval, evaluates the cubic in nested form
  ((d t + c) t + b) t + a, sums over the inputs and adds the bias. The blocked program walks a grid of two batch tiles by
  nineteen interval numbers: at interval number k it multiplies the 0/1 mask [k(x) = k], and the mask times t, t^2 and t^3,
  into the four coefficient slabs of interval k, and accumulates; after the nineteenth step it adds the bias.

  On the extended reals the two agree whenever the samples and the coefficients are real numbers, which the
  precondition (every input finite) provides: for each feature exactly one of the nineteen masks is 1, so the accumulated
  products are  a + b t + c t^2 + d t^3  with that feature's own coefficients, and for real numbers this is the nested cubic.
  Finiteness is needed: distributing a product over a sum fails among infinite values.

  The three frame claims are the generated frame runs (the reference's with its result dropped); the idealization
  rewrote nothing, so its claim is trivial; the equality claim puts the blocked program's run (Proof/KanValue.lean) beside
  the reference's run read as the same function (Proof/KanRef.lean).
-/
import proofs.«166700_j30588757082465_2_alg».proof.Defs
import proofs.«166700_j30588757082465_2_alg».proof.Proof.Gen.Kernel
import proofs.«166700_j30588757082465_2_alg».proof.Proof.Gen.Kernel.Skeleton
import proofs.«166700_j30588757082465_2_alg».proof.Proof.Gen.Kernel.Launch
import proofs.«166700_j30588757082465_2_alg».proof.Proof.Gen.Kernel.Points
import proofs.«166700_j30588757082465_2_alg».proof.Proof.Gen.Kernel.Frame
import proofs.«166700_j30588757082465_2_alg».proof.Proof.Gen.KernelIdeal
import proofs.«166700_j30588757082465_2_alg».proof.Proof.Gen.KernelIdeal.Skeleton
import proofs.«166700_j30588757082465_2_alg».proof.Proof.Gen.KernelIdeal.Launch
import proofs.«166700_j30588757082465_2_alg».proof.Proof.Gen.KernelIdeal.Points
import proofs.«166700_j30588757082465_2_alg».proof.Proof.Gen.KernelIdeal.Frame
import proofs.«166700_j30588757082465_2_alg».proof.Proof.Gen.ReferenceIdeal
import proofs.«166700_j30588757082465_2_alg».proof.Proof.Gen.Pre_finite_inputs
import proofs.«166700_j30588757082465_2_alg».proof.Proof.Gen.KernelIdeal.Value
import proofs.«166700_j30588757082465_2_alg».proof.Proof.Gen.ReferenceIdeal.Run
import proofs.«166700_j30588757082465_2_alg».proof.Proof.Gen.ReferenceIdeal.Read
import proofs.«166700_j30588757082465_2_alg».proof.Proof.KanValue
import proofs.«166700_j30588757082465_2_alg».proof.Proof.KanRef
import proofs.«166700_j30588757082465_2_alg».proof.Proof.KanFinite
import Idealize.ShloMosaic.Adequacy
import Idealize.ShloMosaic.Init

noncomputable section

namespace Cert.Proof

open Idealize.ShloMosaic Idealize.SL.Sem

/-- The blocked program as printed runs and leaves its arguments unchanged. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and leaves its arguments unchanged: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on finite arguments both programs end with the layer of those arguments. -/
theorem algebraic : Cert.algebraic_KernelIdeal_ReferenceIdeal := by
  intro m ρ m' ρ' hpre hagree
  have hreal := fun c => Cert.Kan.real_of_pre _ _ _ (hpre c)
  refine ⟨fun c => Cert.Kan.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KanVal.run m (fun c => (hreal c).1) (fun c => (hreal c).2) ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v54_eq, Cert.Kan.ref_eq_G, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
